-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x8192 : Shape := ⟨2, ![512, 8192]⟩
abbrev S1x8192 : Shape := ⟨2, ![1, 8192]⟩
abbrev S2049x512 : Shape := ⟨2, ![2049, 512]⟩
abbrev S2049 : Shape := ⟨1, ![2049]⟩
abbrev S_ : Shape := ⟨0, ![]⟩

class Facts : Prop where
  bcast_S_S512x8192 : S_.BroadcastsInDim S512x8192 (![] : Fin 0 → Fin S512x8192.rank)
  reducesTo_S512x8192_S_d0_1 : S512x8192.ReducesTo [0, 1] S_
  h_S_ : 0 < S_.numel
  bcast_S_S1x8192 : S_.BroadcastsInDim S1x8192 (![] : Fin 0 → Fin S1x8192.rank)
  reducesTo_S1x8192_S_d0_1 : S1x8192.ReducesTo [0, 1] S_
  bcast_S_S2049x512 : S_.BroadcastsInDim S2049x512 (![] : Fin 0 → Fin S2049x512.rank)
  reducesTo_S2049x512_S_d0_1 : S2049x512.ReducesTo [0, 1] S_
  bcast_S_S2049 : S_.BroadcastsInDim S2049 (![] : Fin 0 → Fin S2049.rank)
  reducesTo_S2049_S_d0 : S2049.ReducesTo [0] S_

variable [Facts]

def fn_part2 {F : FTy → Type} [FloatOps F] (main_arg7 : FVec F S2049x512 .f32) (main_arg8 : FVec F S2049x512 .f32) (main_arg9 : FVec F S2049 .f32) (main_v33 : IVec S_ 1) : IVec S_ 1 :=
  let main_v34 : FVec F S2049x512 .f32 := Host.absf main_arg7
  let main_cst_12 : FVec F S_ .f32 := constant S_ .f32 0x7F800000#32
  let main_v35 : FVec F S2049x512 .f32 := broadcastInDim S2049x512 ![] bcast_S_S2049x512 main_cst_12
  let main_v36 : IVec S2049x512 1 := cmpf .olt main_v34 main_v35
  let main_c_13 : IVec S_ 1 := constantI S_ 1 1#1
  let main_v37 : IVec S_ 1 := (fun x v => Host.reduce IntOp.andi x v reducesTo_S2049x512_S_d0_1 h_S_) main_v36 main_c_13
  let main_v38 : IVec S_ 1 := andi main_v33 main_v37
  let main_v39 : FVec F S2049x512 .f32 := Host.absf main_arg8
  let main_cst_14 : FVec F S_ .f32 := constant S_ .f32 0x7F800000#32
  let main_v40 : FVec F S2049x512 .f32 := broadcastInDim S2049x512 ![] bcast_S_S2049x512 main_cst_14
  let main_v41 : IVec S2049x512 1 := cmpf .olt main_v39 main_v40
  let main_c_15 : IVec S_ 1 := constantI S_ 1 1#1
  let main_v42 : IVec S_ 1 := (fun x v => Host.reduce IntOp.andi x v reducesTo_S2049x512_S_d0_1 h_S_) main_v41 main_c_15
  let main_v43 : IVec S_ 1 := andi main_v38 main_v42
  let main_v44 : FVec F S2049 .f32 := Host.absf main_arg9
  let main_cst_16 : FVec F S_ .f32 := constant S_ .f32 0x7F800000#32
  let main_v45 : FVec F S2049 .f32 := broadcastInDim S2049 ![] bcast_S_S2049 main_cst_16
  let main_v46 : IVec S2049 1 := cmpf .olt main_v44 main_v45
  let main_c_17 : IVec S_ 1 := constantI S_ 1 1#1
  let main_v47 : IVec S_ 1 := (fun x v => Host.reduce IntOp.andi x v reducesTo_S2049_S_d0 h_S_) main_v46 main_c_17
  let main_v48 : IVec S_ 1 := andi main_v43 main_v47
  main_v48

def fn_part1 {F : FTy → Type} [FloatOps F] (main_arg4 : FVec F S1x8192 .f32) (main_arg5 : FVec F S1x8192 .f32) (main_arg6 : FVec F S2049x512 .f32) (main_arg7 : FVec F S2049x512 .f32) (main_arg8 : FVec F S2049x512 .f32) (main_arg9 : FVec F S2049 .f32) (main_v13 : IVec S_ 1) (main_v16 : IVec S512x8192 1) : IVec S_ 1 :=
  let main_c_5 : IVec S_ 1 := constantI S_ 1 1#1
  let main_v17 : IVec S_ 1 := (fun x v => Host.reduce IntOp.andi x v reducesTo_S512x8192_S_d0_1 h_S_) main_v16 main_c_5
  let main_v18 : IVec S_ 1 := andi main_v13 main_v17
  let main_v19 : FVec F S1x8192 .f32 := Host.absf main_arg4
  let main_cst_6 : FVec F S_ .f32 := constant S_ .f32 0x7F800000#32
  let main_v20 : FVec F S1x8192 .f32 := broadcastInDim S1x8192 ![] bcast_S_S1x8192 main_cst_6
  let main_v21 : IVec S1x8192 1 := cmpf .olt main_v19 main_v20
  let main_c_7 : IVec S_ 1 := constantI S_ 1 1#1
  let main_v22 : IVec S_ 1 := (fun x v => Host.reduce IntOp.andi x v reducesTo_S1x8192_S_d0_1 h_S_) main_v21 main_c_7
  let main_v23 : IVec S_ 1 := andi main_v18 main_v22
  let main_v24 : FVec F S1x8192 .f32 := Host.absf main_arg5
  let main_cst_8 : FVec F S_ .f32 := constant S_ .f32 0x7F800000#32
  let main_v25 : FVec F S1x8192 .f32 := broadcastInDim S1x8192 ![] bcast_S_S1x8192 main_cst_8
  let main_v26 : IVec S1x8192 1 := cmpf .olt main_v24 main_v25
  let main_c_9 : IVec S_ 1 := constantI S_ 1 1#1
  let main_v27 : IVec S_ 1 := (fun x v => Host.reduce IntOp.andi x v reducesTo_S1x8192_S_d0_1 h_S_) main_v26 main_c_9
  let main_v28 : IVec S_ 1 := andi main_v23 main_v27
  let main_v29 : FVec F S2049x512 .f32 := Host.absf main_arg6
  let main_cst_10 : FVec F S_ .f32 := constant S_ .f32 0x7F800000#32
  let main_v30 : FVec F S2049x512 .f32 := broadcastInDim S2049x512 ![] bcast_S_S2049x512 main_cst_10
  let main_v31 : IVec S2049x512 1 := cmpf .olt main_v29 main_v30
  let main_c_11 : IVec S_ 1 := constantI S_ 1 1#1
  let main_v32 : IVec S_ 1 := (fun x v => Host.reduce IntOp.andi x v reducesTo_S2049x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S512x8192 .f32) (main_arg1 : FVec F S512x8192 .f32) (main_arg2 : FVec F S512x8192 .f32) (main_arg3 : FVec F S512x8192 .f32) (main_arg4 : FVec F S1x8192 .f32) (main_arg5 : FVec F S1x8192 .f32) (main_arg6 : FVec F S2049x512 .f32) (main_arg7 : FVec F S2049x512 .f32) (main_arg8 : FVec F S2049x512 .f32) (main_arg9 : FVec F S2049 .f32) : IVec S_ 1 :=
  let main_v0 : FVec F S512x8192 .f32 := Host.absf main_arg0
  let main_cst : FVec F S_ .f32 := constant S_ .f32 0x7F800000#32
  let main_v1 : FVec F S512x8192 .f32 := broadcastInDim S512x8192 ![] bcast_S_S512x8192 main_cst
  let main_v2 : IVec S512x8192 1 := cmpf .olt main_v0 main_v1
  let main_c : IVec S_ 1 := constantI S_ 1 1#1
  let main_v3 : IVec S_ 1 := (fun x v => Host.reduce IntOp.andi x v reducesTo_S512x8192_S_d0_1 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  let main_v9 : FVec F S512x8192 .f32 := Host.absf main_arg2
  let main_cst_2 : FVec F S_ .f32 := constant S_ .f32 0x7F800000#32
  let main_v10 : FVec F S512x8192 .f32 := broadcastInDim S512x8192 ![] bcast_S_S512x8192 main_cst_2
  let main_v11 : IVec S512x8192 1 := cmpf .olt main_v9 main_v10
  let main_c_3 : IVec S_ 1 := constantI S_ 1 1#1
  let main_v12 : IVec S_ 1 := (fun x v => Host.reduce IntOp.andi x v reducesTo_S512x8192_S_d0_1 h_S_) main_v11 main_c_3
  let main_v13 : IVec S_ 1 := andi main_v8 main_v12
  let main_v14 : FVec F S512x8192 .f32 := Host.absf main_arg3
  let main_cst_4 : FVec F S_ .f32 := constant S_ .f32 0x7F800000#32
  let main_v15 : FVec F S512x8192 .f32 := broadcastInDim S512x8192 ![] bcast_S_S512x8192 main_cst_4
  let main_v16 : IVec S512x8192 1 := cmpf .olt main_v14 main_v15
  fn_part1 (F := F) main_arg4 main_arg5 main_arg6 main_arg7 main_arg8 main_arg9 main_v13 main_v16
-- ==== Kernel.lean ====
abbrev S512x8192 : Shape := ⟨2, ![512, 8192]⟩
abbrev S1x8192 : Shape := ⟨2, ![1, 8192]⟩
abbrev S2049x512 : Shape := ⟨2, ![2049, 512]⟩
abbrev S2049 : Shape := ⟨1, ![2049]⟩
abbrev S2048x512 : Shape := ⟨2, ![2048, 512]⟩
abbrev S1x512 : Shape := ⟨2, ![1, 512]⟩
abbrev S512x1 : Shape := ⟨2, ![512, 1]⟩
abbrev S2049x1 : Shape := ⟨2, ![2049, 1]⟩
abbrev S2048x1 : Shape := ⟨2, ![2048, 1]⟩
abbrev S1x1 : Shape := ⟨2, ![1, 1]⟩
abbrev S512x512 : Shape := ⟨2, ![512, 512]⟩
abbrev S512 : Shape := ⟨1, ![512]⟩

abbrev nBuf : Space → Nat
  | .hbm => 28
  | .vmem => 26
  | .smem => 0
  | _ => 0

abbrev bufTy : (tb : Table) → Fin (tcTables nBuf tb) → BufTy
  | .hbm, ⟨0, _⟩ => ⟨S512x8192, .f32⟩
  | .hbm, ⟨1, _⟩ => ⟨S512x8192, .f32⟩
  | .hbm, ⟨2, _⟩ => ⟨S512x8192, .f32⟩
  | .hbm, ⟨3, _⟩ => ⟨S512x8192, .f32⟩
  | .hbm, ⟨4, _⟩ => ⟨S1x8192, .f32⟩
  | .hbm, ⟨5, _⟩ => ⟨S1x8192, .f32⟩
  | .hbm, ⟨6, _⟩ => ⟨S2049x512, .f32⟩
  | .hbm, ⟨7, _⟩ => ⟨S2049x512, .f32⟩
  | .hbm, ⟨8, _⟩ => ⟨S2049x512, .f32⟩
  | .hbm, ⟨9, _⟩ => ⟨S2049, .f32⟩
  | .hbm, ⟨10, _⟩ => ⟨S2049x512, .bf16⟩
  | .hbm, ⟨11, _⟩ => ⟨S2048x512, .bf16⟩
  | .hbm, ⟨12, _⟩ => ⟨S1x512, .f32⟩
  | .hbm, ⟨13, _⟩ => ⟨S512x1, .f32⟩
  | .hbm, ⟨14, _⟩ => ⟨S2049x512, .bf16⟩
  | .hbm, ⟨15, _⟩ => ⟨S2048x512, .bf16⟩
  | .hbm, ⟨16, _⟩ => ⟨S1x512, .f32⟩
  | .hbm, ⟨17, _⟩ => ⟨S512x1, .f32⟩
  | .hbm, ⟨18, _⟩ => ⟨S2049x512, .bf16⟩
  | .hbm, ⟨19, _⟩ => ⟨S2048x512, .bf16⟩
  | .hbm, ⟨20, _⟩ => ⟨S1x512, .f32⟩
  | .hbm, ⟨21, _⟩ => ⟨S512x1, .f32⟩
  | .hbm, ⟨22, _⟩ => ⟨S2049x1, .f32⟩
  | .hbm, ⟨23, _⟩ => ⟨S2048x1, .f32⟩
  | .hbm, ⟨24, _⟩ => ⟨S1x1, .f32⟩
  | .hbm, ⟨25, _⟩ => ⟨S512x8192, .f32⟩
  | .hbm, ⟨26, _⟩ => ⟨S512x8192, .f32⟩
  | .hbm, ⟨27, _⟩ => ⟨S1x8192, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S2048x1, .f32⟩
  | .local _ .vmem, ⟨19, _⟩ => ⟨S1x1, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S1x512, .f32⟩
  | .local _ .vmem, ⟨25, _⟩ => ⟨S1x512, .f32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bitsLt_bf16_f32 : FTy.bits .bf16 < FTy.bits .f32
  slices_S2049x512_S2048x512_0_0 : S2049x512.Slices ![0, 0] S2048x512
  slices_S2049x512_S1x512_2048_0 : S2049x512.Slices ![2048, 0] S1x512
  shapeCasts_S1x512_S512x1 : S1x512.ShapeCasts S512x1
  shapeCasts_S2049_S2049x1 : S2049.ShapeCasts S2049x1
  slices_S2049x1_S2048x1_0_0 : S2049x1.Slices ![0, 0] S2048x1
  slices_S2049x1_S1x1_2048_0 : S2049x1.Slices ![2048, 0] S1x1
  inb_S1x512_S1x512_0_0 : ∀ a, (![0, 0] : Fin 2 → Nat) a + S1x512.size a ≤ S1x512.size a
  h_S1x512 : 0 < S1x512.numel
  inb_S512x512_S512x512_0_0 : ∀ a, (![0, 0] : Fin 2 → Nat) a + S512x512.size a ≤ S512x512.size a
  h_S512x512 : 0 < S512x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1x512_S2048x512 : S1x512.Broadcasts S2048x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  slices_S2048x512_o0_0_S512x512 : S2048x512.Slices ![0, 0] S512x512
  slices_S2048x512_o512_0_S512x512 : S2048x512.Slices ![512, 0] S512x512
  slices_S2048x512_o1024_0_S512x512 : S2048x512.Slices ![1024, 0] S512x512
  slices_S2048x512_o1536_0_S512x512 : S2048x512.Slices ![1536, 0] S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  reduces_S512x512_S512 : S512x512.Reduces [0] S512
  shapeCasts_S512_S1x512 : S512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x512 : S1x1.Broadcasts S1x512
  broadcasts_S1x512_S512x512 : S1x512.Broadcasts S512x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x8192.size a
  hwx0_0 : ∀ i : grid0.Coords, EltTy.bits .f32 = 32 ∨ (Rect.block (s := S512x8192) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x8192.size a
  hwx0_1 : ∀ i : grid0.Coords, EltTy.bits .f32 = 32 ∨ (Rect.block (s := S512x8192) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x8192.size a
  hwx0_2 : ∀ i : grid0.Coords, EltTy.bits .f32 = 32 ∨ (Rect.block (s := S512x8192) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x8192.size a
  hwx0_3 : ∀ i : grid0.Coords, EltTy.bits .f32 = 32 ∨ (Rect.block (s := S512x8192) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .f32 = 32 ∨ (Rect.block (s := S1x8192) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .f32 = 32 ∨ (Rect.block (s := S1x8192) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S2048x512.size a
  hwx0_6 : ∀ i : grid0.Coords, EltTy.bits .bf16 = 32 ∨ (Rect.block (s := S2048x512) S2048x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S2048x512.size a
  hwx0_7 : ∀ i : grid0.Coords, EltTy.bits .bf16 = 32 ∨ (Rect.block (s := S2048x512) S2048x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x512.size a ≤ S2048x512.size a
  hwx0_8 : ∀ i : grid0.Coords, EltTy.bits .bf16 = 32 ∨ (Rect.block (s := S2048x512) S2048x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S512x1.size a
  hwx0_9 : ∀ i : grid0.Coords, EltTy.bits .f32 = 32 ∨ (Rect.block (s := S512x1) S512x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S512x1.size a
  hwx0_10 : ∀ i : grid0.Coords, EltTy.bits .f32 = 32 ∨ (Rect.block (s := S512x1) S512x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x1.size a ≤ S512x1.size a
  hwx0_11 : ∀ i : grid0.Coords, EltTy.bits .f32 = 32 ∨ (Rect.block (s := S512x1) S512x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2048x1.size a ≤ S2048x1.size a
  hwx0_12 : ∀ i : grid0.Coords, EltTy.bits .f32 = 32 ∨ (Rect.block (s := S2048x1) S2048x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x512.size a ≤ S512x8192.size a
  hwx0_14 : ∀ i : grid0.Coords, EltTy.bits .f32 = 32 ∨ (Rect.block (s := S512x8192) S512x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S512x8192.size a
  hwx0_15 : ∀ i : grid0.Coords, EltTy.bits .f32 = 32 ∨ (Rect.block (s := S512x8192) S512x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x512.size a ≤ S1x8192.size a
  hwx0_16 : ∀ i : grid0.Coords, EltTy.bits .f32 = 32 ∨ (Rect.block (s := S1x8192) S1x512.size (cc0_transform_16 i) (hinb0_16 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S2048x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S2048x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S2048x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S512x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S512x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S512x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S2048x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v14) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v15_0) S512x512.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v15_1) S512x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v15_2) S1x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S512x8192 : Shape := ⟨2, ![512, 8192]⟩
abbrev S1x8192 : Shape := ⟨2, ![1, 8192]⟩
abbrev S2049x512 : Shape := ⟨2, ![2049, 512]⟩
abbrev S2049 : Shape := ⟨1, ![2049]⟩
abbrev S_ : Shape := ⟨0, ![]⟩
abbrev S2049x8192 : Shape := ⟨2, ![2049, 8192]⟩
abbrev S2049x1 : Shape := ⟨2, ![2049, 1]⟩

abbrev nBuf : Space → Nat
  | .hbm => 118
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S512x8192, .f32⟩
  | .hbm, ⟨2, _⟩ => ⟨S512x8192, .f32⟩
  | .hbm, ⟨3, _⟩ => ⟨S512x8192, .f32⟩
  | .hbm, ⟨4, _⟩ => ⟨S1x8192, .f32⟩
  | .hbm, ⟨5, _⟩ => ⟨S1x8192, .f32⟩
  | .hbm, ⟨6, _⟩ => ⟨S2049x512, .f32⟩
  | .hbm, ⟨7, _⟩ => ⟨S2049x512, .f32⟩
  | .hbm, ⟨8, _⟩ => ⟨S2049x512, .f32⟩
  | .hbm, ⟨9, _⟩ => ⟨S2049, .f32⟩
  | .hbm, ⟨10, _⟩ => ⟨S_, .f32⟩
  | .hbm, ⟨11, _⟩ => ⟨S1x8192, .f32⟩
  | .hbm, ⟨12, _⟩ => ⟨S1x8192, .f32⟩
  | .hbm, ⟨13, _⟩ => ⟨S2049x8192, .f32⟩
  | .hbm, ⟨14, _⟩ => ⟨S2049x8192, .f32⟩
  | .hbm, ⟨15, _⟩ => ⟨S2049x8192, .f32⟩
  | .hbm, ⟨16, _⟩ => ⟨S2049x8192, .f32⟩
  | .hbm, ⟨17, _⟩ => ⟨S2049x8192, .f32⟩
  | .hbm, ⟨18, _⟩ => ⟨S2049x8192, .f32⟩
  | .hbm, ⟨19, _⟩ => ⟨S2049x8192, .f32⟩
  | .hbm, ⟨20, _⟩ => ⟨S2049x8192, .f32⟩
  | .hbm, ⟨21, _⟩ => ⟨S2049x8192, .f32⟩
  | .hbm, ⟨22, _⟩ => ⟨S2049x8192, .f32⟩
  | .hbm, ⟨23, _⟩ => ⟨S2049x8192, .f32⟩
  | .hbm, ⟨24, _⟩ => ⟨S2049x1, .f32⟩
  | .hbm, ⟨25, _⟩ => ⟨S2049x8192, .f32⟩
  | .hbm, ⟨26, _⟩ => ⟨S2049x8192, .f32⟩
  | .hbm, ⟨27, _⟩ => ⟨S512x8192, .f32⟩
  | .hbm, ⟨28, _⟩ => ⟨S512x8192, .f32⟩
  | .hbm, ⟨29, _⟩ => ⟨S512x8192, .f32⟩
  | .hbm, ⟨30, _⟩ => ⟨S_, .f32⟩
  | .hbm, ⟨31, _⟩ => ⟨S512x8192, .f32⟩
  | .hbm, ⟨32, _⟩ => ⟨S512x8192, .f32⟩
  | .hbm, ⟨33, _⟩ => ⟨S_, .f32⟩
  | .hbm, ⟨34, _⟩ => ⟨S512x8192, .f32⟩
  | .hbm, ⟨35, _⟩ => ⟨S512x8192, .f32⟩
  | .hbm, ⟨36, _⟩ => ⟨S512x8192, .f32⟩
  | .hbm, ⟨37, _⟩ => ⟨S512x8192, .f32⟩
  | .hbm, ⟨38, _⟩ => ⟨S512x8192, .f32⟩
  | .hbm, ⟨39, _⟩ => ⟨S_, .f32⟩
  | .hbm, ⟨40, _⟩ => ⟨S512x8192, .f32⟩
  | .hbm, ⟨41, _⟩ => ⟨S512x8192, .f32⟩
  | .hbm, ⟨42, _⟩ => ⟨S_, .f32⟩
  | .hbm, ⟨43, _⟩ => ⟨S512x8192, .f32⟩
  | .hbm, ⟨44, _⟩ => ⟨S512x8192, .f32⟩
  | .hbm, ⟨45, _⟩ => ⟨S512x8192, .f32⟩
  | .hbm, ⟨46, _⟩ => ⟨S512x8192, .f32⟩
  | .hbm, ⟨47, _⟩ => ⟨S512x8192, .f32⟩
  | .hbm, ⟨48, _⟩ => ⟨S_, .f32⟩
  | .hbm, ⟨49, _⟩ => ⟨S512x8192, .f32⟩
  | .hbm, ⟨50, _⟩ => ⟨S512x8192, .f32⟩
  | .hbm, ⟨51, _⟩ => ⟨S_, .f32⟩
  | .hbm, ⟨52, _⟩ => ⟨S512x8192, .f32⟩
  | .hbm, ⟨53, _⟩ => ⟨S512x8192, .f32⟩
  | .hbm, ⟨54, _⟩ => ⟨S512x8192, .f32⟩
  | .hbm, ⟨55, _⟩ => ⟨S512x8192, .f32⟩
  | .hbm, ⟨56, _⟩ => ⟨S1x8192, .f32⟩
  | .hbm, ⟨57, _⟩ => ⟨S_, .f32⟩
  | .hbm, ⟨58, _⟩ => ⟨S1x8192, .f32⟩
  | .hbm, ⟨59, _⟩ => ⟨S1x8192, .f32⟩
  | .hbm, ⟨60, _⟩ => ⟨S_, .f32⟩
  | .hbm, ⟨61, _⟩ => ⟨S1x8192, .f32⟩
  | .hbm, ⟨62, _⟩ => ⟨S1x8192, .f32⟩
  | .hbm, ⟨63, _⟩ => ⟨S_, .f32⟩
  | .hbm, ⟨64, _⟩ => ⟨S1x8192, .f32⟩
  | .hbm, ⟨65, _⟩ => ⟨S1x8192, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S1x8192, .f32⟩
  | .hbm, ⟨70, _⟩ => ⟨S1x8192, .f32⟩
  | .hbm, ⟨71, _⟩ => ⟨S_, .f32⟩
  | .hbm, ⟨72, _⟩ => ⟨S1x8192, .f32⟩
  | .hbm, ⟨73, _⟩ => ⟨S1x8192, .f32⟩
  | .hbm, ⟨74, _⟩ => ⟨S512x8192, .f32⟩
  | .hbm, ⟨75, _⟩ => ⟨S512x8192, .f32⟩
  | .hbm, ⟨76, _⟩ => ⟨S512x8192, .f32⟩
  | .hbm, ⟨77, _⟩ => ⟨S_, .f32⟩
  | .hbm, ⟨78, _⟩ => ⟨S1x8192, .f32⟩
  | .hbm, ⟨79, _⟩ => ⟨S1x8192, .f32⟩
  | .hbm, ⟨80, _⟩ => ⟨S_, .f32⟩
  | .hbm, ⟨81, _⟩ => ⟨S1x8192, .f32⟩
  | .hbm, ⟨82, _⟩ => ⟨S1x8192, .f32⟩
  | .hbm, ⟨83, _⟩ => ⟨S1x8192, .f32⟩
  | .hbm, ⟨84, _⟩ => ⟨S512x8192, .f32⟩
  | .hbm, ⟨85, _⟩ => ⟨S512x8192, .f32⟩
  | .hbm, ⟨86, _⟩ => ⟨S512x8192, .f32⟩
  | .hbm, ⟨87, _⟩ => ⟨S_, .f32⟩
  | .hbm, ⟨88, _⟩ => ⟨S1x8192, .f32⟩
  | .hbm, ⟨89, _⟩ => ⟨S1x8192, .f32⟩
  | .hbm, ⟨90, _⟩ => ⟨S1x8192, .f32⟩
  | .hbm, ⟨91, _⟩ => ⟨S512x8192, .f32⟩
  | .hbm, ⟨92, _⟩ => ⟨S512x8192, .f32⟩
  | .hbm, ⟨93, _⟩ => ⟨S512x8192, .f32⟩
  | .hbm, ⟨94, _⟩ => ⟨S512x8192, .f32⟩
  | .hbm, ⟨95, _⟩ => ⟨S512x8192, .f32⟩
  | .hbm, ⟨96, _⟩ => ⟨S512x8192, .f32⟩
  | .hbm, ⟨97, _⟩ => ⟨S512x8192, .f32⟩
  | .hbm, ⟨98, _⟩ => ⟨S512x8192, .f32⟩
  | .hbm, ⟨99, _⟩ => ⟨S512x8192, .f32⟩
  | .hbm, ⟨100, _⟩ => ⟨S_, .f32⟩
  | .hbm, ⟨101, _⟩ => ⟨S1x8192, .f32⟩
  | .hbm, ⟨102, _⟩ => ⟨S1x8192, .f32⟩
  | .hbm, ⟨103, _⟩ => ⟨S_, .f32⟩
  | .hbm, ⟨104, _⟩ => ⟨S1x8192, .f32⟩
  | .hbm, ⟨105, _⟩ => ⟨S1x8192, .f32⟩
  | .hbm, ⟨106, _⟩ => ⟨S1x8192, .f32⟩
  | .hbm, ⟨107, _⟩ => ⟨S512x8192, .f32⟩
  | .hbm, ⟨108, _⟩ => ⟨S512x8192, .f32⟩
  | .hbm, ⟨109, _⟩ => ⟨S512x8192, .f32⟩
  | .hbm, ⟨110, _⟩ => ⟨S_, .f32⟩
  | .hbm, ⟨111, _⟩ => ⟨S1x8192, .f32⟩
  | .hbm, ⟨112, _⟩ => ⟨S1x8192, .f32⟩
  | .hbm, ⟨113, _⟩ => ⟨S1x8192, .f32⟩
  | .hbm, ⟨114, _⟩ => ⟨S512x8192, .f32⟩
  | .hbm, ⟨115, _⟩ => ⟨S512x8192, .f32⟩
  | .hbm, ⟨116, _⟩ => ⟨S512x8192, .f32⟩
  | .hbm, ⟨117, _⟩ => ⟨S512x8192, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_cst_10 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_cst_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_16 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]

class Facts₀ : Prop where
  bcast_S_S1x8192 : S_.BroadcastsInDim S1x8192 (![] : Fin 0 → Fin S1x8192.rank)
  bcast_S1x8192_S2049x8192_0_1 : S1x8192.BroadcastsInDim S2049x8192 (![0, 1] : Fin 2 → Fin S2049x8192.rank)
  bcast_S2049_S2049x1_0 : S2049.BroadcastsInDim S2049x1 (![0] : Fin 1 → Fin S2049x1.rank)
  bcast_S2049x1_S2049x8192_0_1 : S2049x1.BroadcastsInDim S2049x8192 (![0, 1] : Fin 2 → Fin S2049x8192.rank)
  slices_S2049x8192_S512x8192_0_0 : S2049x8192.Slices ![0, 0] S512x8192
  bcast_S_S512x8192 : S_.BroadcastsInDim S512x8192 (![] : Fin 0 → Fin S512x8192.rank)
  slices_S2049x8192_S512x8192_512_0 : S2049x8192.Slices ![512, 0] S512x8192
  slices_S2049x8192_S512x8192_1024_0 : S2049x8192.Slices ![1024, 0] S512x8192
  slices_S2049x8192_S512x8192_1536_0 : S2049x8192.Slices ![1536, 0] S512x8192
  slices_S2049x8192_S1x8192_2048_0 : S2049x8192.Slices ![2048, 0] S1x8192
  bcast_S1x8192_S512x8192_0_1 : S1x8192.BroadcastsInDim S512x8192 (![0, 1] : Fin 2 → Fin S512x8192.rank)
  dot_S2049x512_S512x8192_S2049x8192_1_0_0_1_n_n_wf : DotDims.WF S2049x512 S512x8192 S2049x8192 [1] [0] [0] [1] [] []

variable [Facts₀]

def dot_S2049x512_S512x8192_S2049x8192_1_0_0_1_n_n : DotDims S2049x512 S512x8192 S2049x8192 where
  lhsContracting := [1]
  rhsContracting := [0]
  lhsNonContracting := [0]
  rhsNonContracting := [1]
  lhsBatch := []
  rhsBatch := []
  wf := dot_S2049x512_S512x8192_S2049x8192_1_0_0_1_n_n_wf

class Facts : Prop extends Facts₀ where

variable [Facts]
-- ==== Proof.Spec.lean ====
/-
  The boundary-gated LSTM cell as ONE function of its ten argument arrays, on the extended reals.

  For a gate row `g < 2049` and a batch column `b < 8192` the pre-activation is
      gate g b = (U₁₁h)(g,b)·(1 − z_b) + (U₂₁h_top)(g,b)·z_b + (W₀₁h_bot)(g,b)·zb_b + bias_g,
  each matrix product the finite sum over the 512 hidden coordinates. Rows 0…511 feed the forget gate,
  512…1023 the input gate, 1024…1535 the output gate (all through the logistic function), rows 1536…2047 the
  candidate (through tanh), and row 2048 the boundary detector, the hard sigmoid clip((x·1 + 1)/2, 0, 1).
  The new cell state mixes "copy", "update" and "flush" by the two boundary indicators,
      c' = z·(i·g) + (1−z)(1−zb)·c + (1−z)·zb·(f·c + i·g),
      h' = z·o·tanh c' + (1−z)(1−zb)·h + (1−z)·zb·o·tanh c'.
  The float literals 1, 2 and 0 are kept as the binary words both programs spell; only the word of 1 is ever
  evaluated (`one_eq`), to meet the logistic function's own numeral.
-/
import Idealize.ShloMosaic.PureOps.Ideal
import Idealize.ShloMosaic.PureOps.Ideal.Laws
import Idealize.ShloMosaic.Lib.ValueIdx

noncomputable section

namespace Cert.Scd

open Idealize.ShloMosaic Idealize.ShloMosaic.ValueIdx

/-- A 512 × 8192 array of extended reals (cell state, hidden states). -/
abbrev M512x8192 : Type := (⟨2, ![512, 8192]⟩ : Shape).Idx → EReal
/-- A 1 × 8192 row (a boundary indicator per batch column). -/
abbrev M1x8192 : Type := (⟨2, ![1, 8192]⟩ : Shape).Idx → EReal
/-- A 2049 × 512 weight matrix: 2048 gate rows and the boundary detector's row. -/
abbrev M2049x512 : Type := (⟨2, ![2049, 512]⟩ : Shape).Idx → EReal
/-- The 2049 biases. -/
abbrev M2049 : Type := (⟨1, ![2049]⟩ : Shape).Idx → EReal

/-- The ten argument arrays, in the order both programs take them. -/
structure Args where
  c : M512x8192
  hb : M512x8192
  h : M512x8192
  ht : M512x8192
  z : M1x8192
  zb : M1x8192
  U11 : M2049x512
  U21 : M2049x512
  W01 : M2049x512
  bias : M2049

/-- The word of `1.0`. -/
abbrev one : EReal := Ideal.ofBits .f32 0x3F800000#32
/-- The word of `2.0`. -/
abbrev two : EReal := Ideal.ofBits .f32 0x40000000#32
/-- The word of `+0.0`. -/
abbrev zero : EReal := Ideal.ofBits .f32 0x00000000#32

/-- The word of `1.0` denotes the number one. -/
theorem one_eq : one = 1 := by
  show Ideal.ofBits .f32 0x3F800000#32 = 1
  simp [Ideal.ofBits, Ideal.ieee, -EReal.coe_mul]; norm_num

/-- The expanded sigmoid `1/(1 + e^(−x))` over the word of one IS the logistic function. -/
theorem sigmoid_eq (x : EReal) : Ideal.div one (one + Ideal.exp (-x)) = Ideal.logistic x := by
  rw [one_eq]; rfl

/-- Row `r` of the gate block that starts at row `o`. -/
abbrev row (r : Fin 512) (o : Nat) (ho : o + 512 ≤ 2049) : Fin 2049 := ⟨r.val + o, by have := r.isLt; omega⟩

/-- One entry of a weight matrix times a hidden-state array: the sum over the 512 hidden coordinates. -/
def dot (U : M2049x512) (x : M512x8192) (g : Fin 2049) (b : Fin 8192) : EReal :=
  ∑ k : Fin 512, U (ix2 g k) * x (ix2 k b)

/-- The pre-activation of gate row `g` at batch column `b`. -/
def gate (A : Args) (g : Fin 2049) (b : Fin 8192) : EReal :=
  ((dot A.U11 A.h g b * (one - A.z (ix2 0 b)) + dot A.U21 A.ht g b * A.z (ix2 0 b))
    + dot A.W01 A.hb g b * A.zb (ix2 0 b)) + A.bias (ix1 g)

/-- The forget gate. -/
def fG (A : Args) (r : Fin 512) (b : Fin 8192) : EReal := Ideal.logistic (gate A (row r 0 (by omega)) b)
/-- The input gate. -/
def iG (A : Args) (r : Fin 512) (b : Fin 8192) : EReal := Ideal.logistic (gate A (row r 512 (by omega)) b)
/-- The output gate. -/
def oG (A : Args) (r : Fin 512) (b : Fin 8192) : EReal := Ideal.logistic (gate A (row r 1024 (by omega)) b)
/-- The candidate. -/
def gG (A : Args) (r : Fin 512) (b : Fin 8192) : EReal := Ideal.tanh (gate A (row r 1536 (by omega)) b)

/-- The new cell state. -/
def cNew (A : Args) (r : Fin 512) (b : Fin 8192) : EReal :=
  (A.z (ix2 0 b) * (iG A r b * gG A r b)
    + ((one - A.z (ix2 0 b)) * (one - A.zb (ix2 0 b))) * A.c (ix2 r b))
  + ((one - A.z (ix2 0 b)) * A.zb (ix2 0 b)) * (fG A r b * A.c (ix2 r b) + iG A r b * gG A r b)

/-- The new hidden state. -/
def hNew (A : Args) (r : Fin 512) (b : Fin 8192) : EReal :=
  ((A.z (ix2 0 b) * oG A r b) * Ideal.tanh (cNew A r b)
    + ((one - A.z (ix2 0 b)) * (one - A.zb (ix2 0 b))) * A.h (ix2 r b))
  + (((one - A.z (ix2 0 b)) * A.zb (ix2 0 b)) * oG A r b) * Ideal.tanh (cNew A r b)

/-- The boundary detector: the hard sigmoid of the last gate row. -/
def zHat (A : Args) (b : Fin 8192) : EReal :=
  min one (max zero (Ideal.div ((gate A ⟨2048, by omega⟩ b * one) + one) two))

/-- The three result arrays. -/
def Hnew (A : Args) : M512x8192 := fun i => hNew A (i 0) (i 1)
def Cnew (A : Args) : M512x8192 := fun i => cNew A (i 0) (i 1)
def Zhat (A : Args) : M1x8192 := fun i => zHat A (i 1)

/-- Three products commuted: a sum of gated matrix products with the gate on the left is the one with the gate
    on the right (multiplication on the extended reals is commutative; no finiteness is needed). -/
theorem gated_comm (a b c s1 s2 s3 d : EReal) :
    ((a * s1 + b * s2) + c * s3) + d = ((s1 * a + s2 * b) + s3 * c) + d := by
  rw [mul_comm a, mul_comm b, mul_comm c]

end Cert.Scd

end
-- ==== Proof.RefValue.lean ====
/-
  The reference, read at an index, is the cell function of Spec.lean.

  Each stage of the reference is read at an index through the generated read lemmas: the three matrix products as
  sums over the hidden coordinate, the broadcasts of the boundary indicators at column `b`, the row slices at their
  offsets. The reference multiplies with the indicator on the LEFT of each matrix product and spells the sigmoid as
  `1/(1 + e^(−x))`; the specification has the indicator on the right and the logistic function: the two meet by
  commutativity of the product (`gated_comm`, `mul_comm`) and by `sigmoid_eq`.
-/
import proofs.«125907_j11879879544318_2_alg».proof.Proof.Gen.ReferenceIdeal.Read
import proofs.«125907_j11879879544318_2_alg».proof.Proof.Spec

noncomputable section

namespace Cert.Scd.Ref

open Cert.ReferenceIdeal Cert.ReferenceIdeal.Read Idealize.ShloMosaic Idealize.ShloMosaic.ValueIdx Cert.Scd

variable (A : Args)

/-! ## Where the reference's index maps send `(g, b)` -/

theorem lidx2 (g : Fin 2049) (b : Fin 8192) (k : Fin 512) : lidx_main_v2 (ix2 g b) k = ix2 g k :=
  funext fun a => Fin.ext (by match a with | ⟨0, _⟩ => rfl | ⟨1, _⟩ => rfl)
theorem ridx2 (g : Fin 2049) (b : Fin 8192) (k : Fin 512) : ridx_main_v2 (ix2 g b) k = ix2 k b :=
  funext fun a => Fin.ext (by match a with | ⟨0, _⟩ => rfl | ⟨1, _⟩ => rfl)
theorem lidx5 (g : Fin 2049) (b : Fin 8192) (k : Fin 512) : lidx_main_v5 (ix2 g b) k = ix2 g k :=
  funext fun a => Fin.ext (by match a with | ⟨0, _⟩ => rfl | ⟨1, _⟩ => rfl)
theorem ridx5 (g : Fin 2049) (b : Fin 8192) (k : Fin 512) : ridx_main_v5 (ix2 g b) k = ix2 k b :=
  funext fun a => Fin.ext (by match a with | ⟨0, _⟩ => rfl | ⟨1, _⟩ => rfl)
theorem lidx8 (g : Fin 2049) (b : Fin 8192) (k : Fin 512) : lidx_main_v8 (ix2 g b) k = ix2 g k :=
  funext fun a => Fin.ext (by match a with | ⟨0, _⟩ => rfl | ⟨1, _⟩ => rfl)
theorem ridx8 (g : Fin 2049) (b : Fin 8192) (k : Fin 512) : ridx_main_v8 (ix2 g b) k = ix2 k b :=
  funext fun a => Fin.ext (by match a with | ⟨0, _⟩ => rfl | ⟨1, _⟩ => rfl)
theorem col3 (g : Fin 2049) (b : Fin 8192) : idx_main_v3 (ix2 g b) = ix2 (0 : Fin 1) b :=
  funext fun a => Fin.ext (by match a with | ⟨0, _⟩ => rfl | ⟨1, _⟩ => rfl)
theorem col6 (g : Fin 2049) (b : Fin 8192) : idx_main_v6 (ix2 g b) = ix2 (0 : Fin 1) b :=
  funext fun a => Fin.ext (by match a with | ⟨0, _⟩ => rfl | ⟨1, _⟩ => rfl)
theorem col9 (g : Fin 2049) (b : Fin 8192) : idx_main_v9 (ix2 g b) = ix2 (0 : Fin 1) b :=
  funext fun a => Fin.ext (by match a with | ⟨0, _⟩ => rfl | ⟨1, _⟩ => rfl)
theorem brow (g : Fin 2049) (b : Fin 8192) : idx_main_v13 (idx_main_v14 (ix2 g b)) = ix1 g :=
  funext fun a => Fin.ext (by match a with | ⟨0, _⟩ => rfl)

/-- The pre-activation of gate row `g` at column `b`. -/
theorem gate_eq (g : Fin 2049) (b : Fin 8192) :
    val_main_v15 (F := Ideal) A.hb A.h A.ht A.z A.zb A.U11 A.U21 A.W01 A.bias (ix2 g b) = gate A g b := by
  rw [val_main_v15_apply, val_main_v12_apply, val_main_v11_apply, val_main_v4_apply, val_main_v7_apply, val_main_v10_apply,
    val_main_v3_apply, val_main_v1_apply, val_main_v0_apply, val_main_cst_apply, val_main_v2_apply, val_main_v6_apply,
    val_main_v5_apply, val_main_v9_apply, val_main_v8_apply, val_main_v14_apply, val_main_v13_apply]
  simp only [lidx2, ridx2, lidx5, ridx5, lidx8, ridx8, col3, col6, col9, brow]
  exact gated_comm _ _ _ _ _ _ _

/-! ## The four gates: rows `r`, `512 + r`, `1024 + r`, `1536 + r` -/

theorem sl16 (r : Fin 512) (b : Fin 8192) : idx_main_v16 (ix2 r b) = ix2 (row r 0 (by omega)) b :=
  funext fun a => Fin.ext (by match a with | ⟨0, _⟩ => rfl | ⟨1, _⟩ => rfl)
theorem sl23 (r : Fin 512) (b : Fin 8192) : idx_main_v23 (ix2 r b) = ix2 (row r 512 (by omega)) b :=
  funext fun a => Fin.ext (by match a with | ⟨0, _⟩ => show 512 + r.val = r.val + 512; omega | ⟨1, _⟩ => rfl)
theorem sl30 (r : Fin 512) (b : Fin 8192) : idx_main_v30 (ix2 r b) = ix2 (row r 1024 (by omega)) b :=
  funext fun a => Fin.ext (by match a with | ⟨0, _⟩ => show 1024 + r.val = r.val + 1024; omega | ⟨1, _⟩ => rfl)
theorem sl37 (r : Fin 512) (b : Fin 8192) : idx_main_v37 (ix2 r b) = ix2 (row r 1536 (by omega)) b :=
  funext fun a => Fin.ext (by match a with | ⟨0, _⟩ => show 1536 + r.val = r.val + 1536; omega | ⟨1, _⟩ => rfl)
theorem sl39 (b : Fin 8192) : idx_main_v39 (ix2 (0 : Fin 1) b) = ix2 (⟨2048, by omega⟩ : Fin 2049) b :=
  funext fun a => Fin.ext (by match a with | ⟨0, _⟩ => rfl | ⟨1, _⟩ => rfl)

/-- The forget gate: the expanded sigmoid of rows `0 … 511`. -/
theorem f_eq (r : Fin 512) (b : Fin 8192) : val_main_v22 (F := Ideal) A.hb A.h A.ht A.z A.zb A.U11 A.U21 A.W01 A.bias (ix2 r b) = fG A r b := by
  rw [val_main_v22_apply, val_main_v21_apply, val_main_cst_1_apply, val_main_v20_apply, val_main_v19_apply, val_main_cst_0_apply,
    val_main_v18_apply, val_main_v17_apply, val_main_v16_apply, sl16, gate_eq]
  exact sigmoid_eq _

/-- The input gate: rows `512 … 1023`. -/
theorem i_eq (r : Fin 512) (b : Fin 8192) : val_main_v29 (F := Ideal) A.hb A.h A.ht A.z A.zb A.U11 A.U21 A.W01 A.bias (ix2 r b) = iG A r b := by
  rw [val_main_v29_apply, val_main_v28_apply, val_main_cst_3_apply, val_main_v27_apply, val_main_v26_apply, val_main_cst_2_apply,
    val_main_v25_apply, val_main_v24_apply, val_main_v23_apply, sl23, gate_eq]
  exact sigmoid_eq _

/-- The output gate: rows `1024 … 1535`. -/
theorem o_eq (r : Fin 512) (b : Fin 8192) : val_main_v36 (F := Ideal) A.hb A.h A.ht A.z A.zb A.U11 A.U21 A.W01 A.bias (ix2 r b) = oG A r b := by
  rw [val_main_v36_apply, val_main_v35_apply, val_main_cst_5_apply, val_main_v34_apply, val_main_v33_apply, val_main_cst_4_apply,
    val_main_v32_apply, val_main_v31_apply, val_main_v30_apply, sl30, gate_eq]
  exact sigmoid_eq _

/-- The candidate: tanh of rows `1536 … 2047`. -/
theorem g_eq (r : Fin 512) (b : Fin 8192) : val_main_v38 (F := Ideal) A.hb A.h A.ht A.z A.zb A.U11 A.U21 A.W01 A.bias (ix2 r b) = gG A r b := by
  rw [val_main_v38_apply, val_main_v37_apply, sl37, gate_eq]
  rfl

/-! ## The indicator rows broadcast over the 512 hidden rows -/

theorem bc48 (r : Fin 512) (b : Fin 8192) : idx_main_v48 (ix2 r b) = ix2 (0 : Fin 1) b :=
  funext fun a => Fin.ext (by match a with | ⟨0, _⟩ => rfl | ⟨1, _⟩ => rfl)
theorem bc55 (r : Fin 512) (b : Fin 8192) : idx_main_v55 (ix2 r b) = ix2 (0 : Fin 1) b :=
  funext fun a => Fin.ext (by match a with | ⟨0, _⟩ => rfl | ⟨1, _⟩ => rfl)
theorem bc63 (r : Fin 512) (b : Fin 8192) : idx_main_v63 (ix2 r b) = ix2 (0 : Fin 1) b :=
  funext fun a => Fin.ext (by match a with | ⟨0, _⟩ => rfl | ⟨1, _⟩ => rfl)
theorem bc67 (r : Fin 512) (b : Fin 8192) : idx_main_v67 (ix2 r b) = ix2 (0 : Fin 1) b :=
  funext fun a => Fin.ext (by match a with | ⟨0, _⟩ => rfl | ⟨1, _⟩ => rfl)
theorem bc75 (r : Fin 512) (b : Fin 8192) : idx_main_v75 (ix2 r b) = ix2 (0 : Fin 1) b :=
  funext fun a => Fin.ext (by match a with | ⟨0, _⟩ => rfl | ⟨1, _⟩ => rfl)
theorem bc81 (r : Fin 512) (b : Fin 8192) : idx_main_v81 (ix2 r b) = ix2 (0 : Fin 1) b :=
  funext fun a => Fin.ext (by match a with | ⟨0, _⟩ => rfl | ⟨1, _⟩ => rfl)

/-- The new cell state at `(r, b)`. -/
theorem c_eq (r : Fin 512) (b : Fin 8192) : val_main_v65 (F := Ideal) A.c A.hb A.h A.ht A.z A.zb A.U11 A.U21 A.W01 A.bias (ix2 r b) = cNew A r b := by
  rw [val_main_v65_apply, val_main_v57_apply, val_main_v49_apply, val_main_v48_apply, val_main_v47_apply,
    val_main_v56_apply, val_main_v55_apply, val_main_v54_apply, val_main_v51_apply, val_main_v50_apply, val_main_cst_11_apply,
    val_main_v53_apply, val_main_v52_apply, val_main_cst_12_apply,
    val_main_v64_apply, val_main_v63_apply, val_main_v60_apply, val_main_v59_apply, val_main_v58_apply, val_main_cst_13_apply,
    val_main_v62_apply, val_main_v61_apply, val_main_v47_apply,
    bc48, bc55, bc63, f_eq, i_eq, g_eq]
  rfl

/-- The new hidden state at `(r, b)`. -/
theorem h_eq (r : Fin 512) (b : Fin 8192) : val_main_v84 (F := Ideal) A.c A.hb A.h A.ht A.z A.zb A.U11 A.U21 A.W01 A.bias (ix2 r b) = hNew A r b := by
  rw [val_main_v84_apply, val_main_v77_apply, val_main_v69_apply, val_main_v68_apply, val_main_v67_apply, val_main_v66_apply,
    val_main_v76_apply, val_main_v75_apply, val_main_v74_apply, val_main_v71_apply, val_main_v70_apply, val_main_cst_14_apply,
    val_main_v73_apply, val_main_v72_apply, val_main_cst_15_apply,
    val_main_v83_apply, val_main_v82_apply, val_main_v81_apply, val_main_v80_apply, val_main_v79_apply, val_main_v78_apply,
    val_main_cst_16_apply, val_main_v66_apply,
    bc67, bc75, bc81, o_eq, c_eq]
  rfl

/-- The boundary detector at column `b`: the clip of `(1·x + 1)/2` of row 2048. -/
theorem z_eq (b : Fin 8192) : val_main_v46 (F := Ideal) A.hb A.h A.ht A.z A.zb A.U11 A.U21 A.W01 A.bias (ix2 (0 : Fin 1) b) = zHat A b := by
  rw [val_main_v46_apply, val_main_call0_v4_apply, val_main_call0_v3_apply, val_main_cst_10_apply,
    val_main_call0_v2_apply, val_main_call0_v1_apply, val_main_call0_v0_apply, val_main_cst_9_apply,
    val_main_v45_apply, val_main_v44_apply, val_main_cst_8_apply, val_main_v43_apply, val_main_v42_apply, val_main_cst_7_apply,
    val_main_v41_apply, val_main_v40_apply, val_main_cst_6_apply, val_main_v39_apply, sl39, gate_eq]
  show min one (max zero (Ideal.div (one * gate A ⟨2048, by omega⟩ b + one) two)) = _
  rw [mul_comm one]
  rfl

/-! ## The three result arrays -/

theorem Hnew_eq : val_main_v84 (F := Ideal) A.c A.hb A.h A.ht A.z A.zb A.U11 A.U21 A.W01 A.bias = Hnew A := by
  funext i
  obtain ⟨r, b, rfl⟩ : ∃ (r : Fin 512) (b : Fin 8192), i = ix2 r b := ⟨i 0, i 1, eq_ix2 i⟩
  exact h_eq A r b

theorem Cnew_eq : val_main_v65 (F := Ideal) A.c A.hb A.h A.ht A.z A.zb A.U11 A.U21 A.W01 A.bias = Cnew A := by
  funext i
  obtain ⟨r, b, rfl⟩ : ∃ (r : Fin 512) (b : Fin 8192), i = ix2 r b := ⟨i 0, i 1, eq_ix2 i⟩
  exact c_eq A r b

theorem Zhat_eq : val_main_v46 (F := Ideal) A.hb A.h A.ht A.z A.zb A.U11 A.U21 A.W01 A.bias = Zhat A := by
  funext i
  obtain ⟨r, b, rfl⟩ : ∃ (r : Fin 1) (b : Fin 8192), i = ix2 r b := ⟨i 0, i 1, eq_ix2 i⟩
  obtain rfl : r = 0 := Subsingleton.elim _ _
  exact z_eq A b

end Cert.Scd.Ref

end
-- ==== Proof.KerOps.lean ====
/-
  The kernel body's non-pointwise operations read at an index, over arbitrary loaded vectors.

  A matrix product into the zero accumulator is, entry by entry, the sum over the 512 contracted coordinates of the
  products (the rounding of the operands to bf16 is the identity on the extended reals); a row [1,512] broadcast
  down 2048 rows reads its lane; a column [2048,1] broadcast across 512 lanes reads its row; the sum of a
  [512,512] product of a broadcast column with a block over axis 0 is the sum over the 512 rows. With these the
  gate pre-activation of the body (all 2048 rows of it) is three gated sums plus the bias column.
-/
import proofs.«125907_j11879879544318_2_alg».proof.Proof.Gen.KernelIdeal.Skeleton
import proofs.«125907_j11879879544318_2_alg».proof.Proof.Spec
import Idealize.ShloMosaic.Lib.Pipeline.Value
import Idealize.ShloMosaic.Lib.ValueIdx
import Idealize.ShloMosaic.PureOps.Ideal.Laws

noncomputable section

namespace Cert.Scd.Ker

open Cert.KernelIdeal Cert.KernelIdeal.Gen Idealize.ShloMosaic Idealize.ShloMosaic.TcCoe Idealize.ShloMosaic.ValueIdx Cert.Scd

/-- The first coordinate of a rank-2 index, typed by the literal extent. -/
abbrev c0 {n0 n1 : Nat} (x : (⟨2, ![n0, n1]⟩ : Shape).Idx) : Fin n0 := ⟨(x 0).val, idx2_lt0 x⟩
/-- The second coordinate of a rank-2 index, typed by the literal extent. -/
abbrev c1 {n0 n1 : Nat} (x : (⟨2, ![n0, n1]⟩ : Shape).Idx) : Fin n1 := ⟨(x 1).val, idx2_lt1 x⟩
/-- A rank-2 index is the pair of its coordinates. -/
theorem eq_c {n0 n1 : Nat} (x : (⟨2, ![n0, n1]⟩ : Shape).Idx) : x = ix2 (c0 x) (c1 x) := by
  funext a; match a with | ⟨0, _⟩ => rfl | ⟨1, _⟩ => rfl

/-- The body's matrix product: [2048,512] by [512,512], contracting the 512 hidden coordinates. -/
abbrev D : DotDims S2048x512 S512x512 S2048x512 := dot_S2048x512_S512x512_S2048x512_1_0_0_1_n_n

theorem lhs0 (i : S2048x512.Idx) (q : D.contr.Idx) : (D.lhsIdx i q 0).val = (i 0).val := by
  unfold DotDims.lhsIdx
  rw [dif_neg (show ¬(0 : Fin S2048x512.rank) ∈ D.lhsBatch by decide), dif_pos (show (0 : Fin S2048x512.rank) ∈ D.lhsNonContracting by decide)]
  rfl
theorem lhs1 (i : S2048x512.Idx) (q : D.contr.Idx) : (D.lhsIdx i q 1).val = (q ⟨0, by decide⟩).val :=
  D.lhsIdx_val_of_single rfl i q
theorem rhs0 (i : S2048x512.Idx) (q : D.contr.Idx) : (D.rhsIdx i q 0).val = (q ⟨0, by decide⟩).val :=
  D.rhsIdx_val_of_single rfl i q
theorem rhs1 (i : S2048x512.Idx) (q : D.contr.Idx) : (D.rhsIdx i q 1).val = (i 1).val := by
  unfold DotDims.rhsIdx
  rw [dif_neg (show ¬(1 : Fin S512x512.rank) ∈ D.rhsBatch by decide), dif_pos (show (1 : Fin S512x512.rank) ∈ D.rhsNonContracting by decide)]
  rfl

/-- Entry `(g, j)` of the product into the zero accumulator: the sum over the hidden coordinate. -/
theorem mm_apply (L : FVec Ideal S2048x512 .bf16) (R : FVec Ideal S512x512 .bf16) (g : Fin 2048) (j : Fin 512) :
    matmul (F := Ideal) D none L R (constant S2048x512 .f32 0x00000000#32) (ix2 g j)
      = ∑ k : Fin 512, L (ix2 g k) * R (ix2 k j) := by
  simp only [matmul]
  rw [Ideal.matmul_constant_zero_apply, ← Equiv.sum_comp (ValueIdx.contrEquiv1 D 512 rfl rfl).symm]
  refine Finset.sum_congr rfl fun k _ => ?_
  have hk := ValueIdx.contrEquiv1_symm_val D 512 rfl rfl k
  have el : D.lhsIdx (ix2 g j) ((ValueIdx.contrEquiv1 D 512 rfl rfl).symm k) = ix2 g k := funext fun a => Fin.ext (by
    match a with
    | ⟨0, _⟩ => exact lhs0 _ _
    | ⟨1, _⟩ => exact (lhs1 _ _).trans hk)
  have er : D.rhsIdx (ix2 g j) ((ValueIdx.contrEquiv1 D 512 rfl rfl).symm k) = ix2 k j := funext fun a => Fin.ext (by
    match a with
    | ⟨0, _⟩ => exact (rhs0 _ _).trans hk
    | ⟨1, _⟩ => exact rhs1 _ _)
  rw [el, er]

/-- The same entry as the body spells it: the weight block through its identity shape cast, the hidden-state block
    rounded to bf16 (the identity on the extended reals). -/
theorem mm_pay (W : FVec Ideal S2048x512 .bf16) (X : FVec Ideal S512x512 .f32) (g : Fin 2048) (j : Fin 512) :
    matmul (F := Ideal) D none (shapeCast S2048x512 W shapeCasts_S2048x512_S2048x512) (truncf .bf16 X bitsLt_bf16_f32)
        (constant S2048x512 .f32 0x00000000#32) (ix2 g j)
      = ∑ k : Fin 512, W (ix2 g k) * X (ix2 k j) := by
  refine (mm_apply _ _ g j).trans ?_
  rw [shapeCast_self]
  rfl

/-- A [1,512] row broadcast down the 2048 gate rows reads its lane. -/
theorem bcrow2048 (v : FVec Ideal S1x512 .f32) (g : Fin 2048) (j : Fin 512) :
    broadcastTo S2048x512 v broadcasts_S1x512_S2048x512 (ix2 g j) = v (ix2 (0 : Fin 1) j) :=
  broadcastTo_apply v broadcasts_S1x512_S2048x512 (ix2 g j) (ix2 (0 : Fin 1) j) (fun a => match a with
    | ⟨0, _⟩ => by show 0 = (if (1 : Nat) = 1 then 0 else g.val); rw [if_pos rfl]
    | ⟨1, _⟩ => by show j.val = (if (512 : Nat) = 1 then 0 else j.val); rw [if_neg (by decide)])

/-- The [2048,1] bias column (through its identity shape cast) broadcast across the 512 lanes reads its row. -/
theorem bccol2048 (v : FVec Ideal S2048x1 .f32) (g : Fin 2048) (j : Fin 512) :
    broadcastTo S2048x512 (shapeCast S2048x1 v shapeCasts_S2048x1_S2048x1) broadcasts_S2048x1_S2048x512 (ix2 g j)
      = v (ix2 g (0 : Fin 1)) := by
  rw [shapeCast_self]
  exact broadcastTo_apply v broadcasts_S2048x1_S2048x512 (ix2 g j) (ix2 g (0 : Fin 1)) (fun a => match a with
    | ⟨0, _⟩ => by show g.val = (if (2048 : Nat) = 1 then 0 else g.val); rw [if_neg (by decide)]
    | ⟨1, _⟩ => by show 0 = (if (1 : Nat) = 1 then 0 else j.val); rw [if_pos rfl])

/-- A [512,1] weight column (through its identity shape cast) broadcast across the 512 lanes reads its row. -/
theorem bccol512 (u : FVec Ideal S512x1 .f32) (k : Fin 512) (j : Fin 512) :
    broadcastTo S512x512 (shapeCast S512x1 u shapeCasts_S512x1_S512x1) broadcasts_S512x1_S512x512 (ix2 k j)
      = u (ix2 k (0 : Fin 1)) := by
  rw [shapeCast_self]
  exact broadcastTo_apply u broadcasts_S512x1_S512x512 (ix2 k j) (ix2 k (0 : Fin 1)) (fun a => match a with
    | ⟨0, _⟩ => by show k.val = (if (512 : Nat) = 1 then 0 else k.val); rw [if_neg (by decide)]
    | ⟨1, _⟩ => by show 0 = (if (1 : Nat) = 1 then 0 else j.val); rw [if_pos rfl])

/-- Where the sum over axis 0 of a [512,512] block, read at lane `j`, takes its `k`-th term. -/
theorem lift_row (j : Fin 512) (k : Fin 512) :
    reduces_S512x512_S512.lift (ix1 j) k = ix2 k j :=
  funext fun a => Fin.ext (by match a with | ⟨0, _⟩ => rfl | ⟨1, _⟩ => rfl)

/-- The boundary detector's row as the body computes it: the lane sum over the 512 rows of a weight column times a
    hidden-state block. -/
theorem colsum_apply (u : FVec Ideal S512x1 .f32) (X : FVec Ideal S512x512 .f32) (j : Fin 512)
    (hacc : (0x00000000#32 : BitVec 32) = 0x00000000#32) :
    multiReduction (F := Ideal) .add [0] S512
        (mulf (broadcastTo S512x512 (shapeCast S512x1 u shapeCasts_S512x1_S512x1) broadcasts_S512x1_S512x512) X)
        0x00000000#32 reduces_S512x512_S512 (.inl rfl) hacc (ix1 j)
      = ∑ k : Fin 512, u (ix2 k (0 : Fin 1)) * X (ix2 k j) := by
  refine (Ideal.multiReduction_add_single _ 0x00000000#32 reduces_S512x512_S512 (.inl rfl) hacc (ix1 j)).trans ?_
  show (∑ k : Fin 512, mulf (broadcastTo S512x512 (shapeCast S512x1 u shapeCasts_S512x1_S512x1) broadcasts_S512x1_S512x512) X
      (reduces_S512x512_S512.lift (ix1 j) k)) = _
  refine Finset.sum_congr rfl fun k _ => ?_
  exact (congrArg (mulf (broadcastTo S512x512 (shapeCast S512x1 u shapeCasts_S512x1_S512x1) broadcasts_S512x1_S512x512) X)
    (lift_row j k)).trans (congrArg (· * X (ix2 k j)) (bccol512 u k j))

/-- The gate pre-activation the body computes, entry `(g, j)` of its 2048 rows: the three matrix products, each
    times its indicator row at lane `j`, summed in the body's order, plus the bias column at row `g`. -/
theorem pay6_apply (P0 P1 : Vec Ideal S1x512 .f32) (P2 P3 P4 : Vec Ideal S512x512 .f32)
    (P5 P6 P7 : Vec Ideal S2048x512 .bf16) (P8 : Vec Ideal S2048x1 .f32) (g : Fin 2048) (j : Fin 512) :
    k0_pay6 (F := Ideal) P0 P1 P2 P3 P4 P5 P6 P7 P8 (ix2 g j)
      = (((∑ k : Fin 512, P5 (ix2 g k) * P2 (ix2 k j)) * (one - P0 (ix2 (0 : Fin 1) j))
          + (∑ k : Fin 512, P6 (ix2 g k) * P4 (ix2 k j)) * P0 (ix2 (0 : Fin 1) j))
          + (∑ k : Fin 512, P7 (ix2 g k) * P3 (ix2 k j)) * P1 (ix2 (0 : Fin 1) j))
        + P8 (ix2 g (0 : Fin 1)) := by
  have m1 := mm_pay P5 P2 g j
  have m2 := mm_pay P6 P4 g j
  have m3 := mm_pay P7 P3 g j
  have b1 : broadcastTo S2048x512 (k0_pay4 (F := Ideal) P0) broadcasts_S1x512_S2048x512 (ix2 g j) = one - P0 (ix2 (0 : Fin 1) j) :=
    bcrow2048 (k0_pay4 (F := Ideal) P0) g j
  have b2 := bcrow2048 P0 g j
  have b3 := bcrow2048 P1 g j
  have b4 := bccol2048 P8 g j
  exact congrArg₂ (· + ·) (congrArg₂ (· + ·) (congrArg₂ (· + ·) (congrArg₂ (· * ·) m1 b1) (congrArg₂ (· * ·) m2 b2))
    (congrArg₂ (· * ·) m3 b3)) b4

end Cert.Scd.Ker

end
-- ==== Proof.KerE.lean ====
/-
  What one grid point leaves in each output block is the cell function on that point's 512 batch columns.

  Grid point `t` (of 16) works on batch columns `512·t … 512·t + 511`: its blocks of the four hidden-state arrays
  and of the two indicator rows are those columns, while the weight blocks, the three weight columns of the
  boundary detector and the biases are whole (the same at every point). Stated over ARBITRARY loaded vectors that
  read the argument arrays in that way (`Reads`, `ReadsZ`), the block the body leaves — one index-by-index
  function of its loads — is the specification at row `y₀` and column `512·t + y₁`.
-/
import proofs.«125907_j11879879544318_2_alg».proof.Proof.KernelValue
import proofs.«125907_j11879879544318_2_alg».proof.Proof.KerOps

noncomputable section

namespace Cert.Scd.Ker

open Cert.KernelIdeal Cert.KernelIdeal.Gen Cert.KernelIdeal.ValueP Idealize.ShloMosaic Idealize.ShloMosaic.TcCoe
  Idealize.ShloMosaic.ValueIdx Cert.Scd

/-- The batch column of lane `j` in the block of grid point `t`. -/
abbrev col (t : Nat) (ht : t < 16) (j : Fin 512) : Fin 8192 := ⟨t * 512 + j.val, by have := j.isLt; omega⟩
/-- Gate row `g < 2048` among the 2049 rows of a weight matrix. -/
abbrev up (g : Fin 2048) : Fin 2049 := ⟨g.val, by have := g.isLt; omega⟩
/-- The boundary detector's row. -/
abbrev last : Fin 2049 := ⟨2048, by omega⟩

/-- The loads of the two state outputs' payloads read the argument arrays: the indicator rows and the four state
    blocks at the point's columns, the three weight blocks and the bias column whole. -/
structure Reads (A : Args) (t : Nat) (ht : t < 16) (P0 P1 : Vec Ideal S1x512 .f32) (P2 P3 P4 : Vec Ideal S512x512 .f32) (P5 P6 P7 : Vec Ideal S2048x512 .bf16) (P8 : Vec Ideal S2048x1 .f32) (P9 : Vec Ideal S512x512 .f32) : Prop where
  z : ∀ x : S1x512.Idx, P0 x = A.z (ix2 (0 : Fin 1) (col t ht (c1 x)))
  zb : ∀ x : S1x512.Idx, P1 x = A.zb (ix2 (0 : Fin 1) (col t ht (c1 x)))
  h : ∀ x : S512x512.Idx, P2 x = A.h (ix2 (c0 x) (col t ht (c1 x)))
  hb : ∀ x : S512x512.Idx, P3 x = A.hb (ix2 (c0 x) (col t ht (c1 x)))
  ht' : ∀ x : S512x512.Idx, P4 x = A.ht (ix2 (c0 x) (col t ht (c1 x)))
  u11 : ∀ x : S2048x512.Idx, P5 x = A.U11 (ix2 (up (c0 x)) (c1 x))
  u21 : ∀ x : S2048x512.Idx, P6 x = A.U21 (ix2 (up (c0 x)) (c1 x))
  w01 : ∀ x : S2048x512.Idx, P7 x = A.W01 (ix2 (up (c0 x)) (c1 x))
  b : ∀ x : S2048x1.Idx, P8 x = A.bias (ix1 (up (c0 x)))
  c : ∀ x : S512x512.Idx, P9 x = A.c (ix2 (c0 x) (col t ht (c1 x)))

/-- The body's gate pre-activation at a block index is the specification's at that row and the point's column. -/
theorem gate_pay (A : Args) (t : Nat) (ht : t < 16) (P0 P1 : Vec Ideal S1x512 .f32) (P2 P3 P4 : Vec Ideal S512x512 .f32) (P5 P6 P7 : Vec Ideal S2048x512 .bf16) (P8 : Vec Ideal S2048x1 .f32) (P9 : Vec Ideal S512x512 .f32)
    (R : Reads A t ht P0 P1 P2 P3 P4 P5 P6 P7 P8 P9) (x : S2048x512.Idx) :
    k0_pay6 (F := Ideal) P0 P1 P2 P3 P4 P5 P6 P7 P8 x = gate A (up (c0 x)) (col t ht (c1 x)) := by
  refine (congrArg (k0_pay6 (F := Ideal) P0 P1 P2 P3 P4 P5 P6 P7 P8) (eq_c x)).trans ?_
  refine (pay6_apply P0 P1 P2 P3 P4 P5 P6 P7 P8 (c0 x) (c1 x)).trans ?_
  simp only [R.z, R.zb, R.h, R.hb, R.ht', R.u11, R.u21, R.w01, R.b]
  rfl

/-- The new cell state's block. -/
theorem E15_eq (A : Args) (t : Nat) (ht : t < 16) (P0 P1 : Vec Ideal S1x512 .f32) (P2 P3 P4 : Vec Ideal S512x512 .f32) (P5 P6 P7 : Vec Ideal S2048x512 .bf16) (P8 : Vec Ideal S2048x1 .f32) (P9 : Vec Ideal S512x512 .f32)
    (R : Reads A t ht P0 P1 P2 P3 P4 P5 P6 P7 P8 P9) (y : S512x512.Idx) :
    E15 (F := Ideal) P0 P1 P2 P3 P4 P5 P6 P7 P8 P9 y = cNew A (c0 y) (col t ht (c1 y)) := by
  simp only [E15, gate_pay A t ht P0 P1 P2 P3 P4 P5 P6 P7 P8 P9 R, R.z, R.zb, R.c]
  rfl

/-- The new hidden state's block. -/
theorem E14_eq (A : Args) (t : Nat) (ht : t < 16) (P0 P1 : Vec Ideal S1x512 .f32) (P2 P3 P4 : Vec Ideal S512x512 .f32) (P5 P6 P7 : Vec Ideal S2048x512 .bf16) (P8 : Vec Ideal S2048x1 .f32) (P9 : Vec Ideal S512x512 .f32)
    (R : Reads A t ht P0 P1 P2 P3 P4 P5 P6 P7 P8 P9) (y : S512x512.Idx) :
    E14 (F := Ideal) P0 P1 P2 P3 P4 P5 P6 P7 P8 P9 y = hNew A (c0 y) (col t ht (c1 y)) := by
  simp only [E14, gate_pay A t ht P0 P1 P2 P3 P4 P5 P6 P7 P8 P9 R, R.z, R.zb, R.c, R.h]
  rfl

/-- The loads of the boundary detector's payload read the argument arrays: the detector's three weight columns
    (row 2048 of each matrix, re-laid as a column), the three state blocks and the two indicator rows at the
    point's columns, and the detector's bias. -/
structure ReadsZ (A : Args) (t : Nat) (ht : t < 16) (Q0 : Vec Ideal S512x1 .f32) (Q1 : Vec Ideal S512x512 .f32) (Q2 : Vec Ideal S1x512 .f32) (Q3 : Vec Ideal S512x1 .f32) (Q4 : Vec Ideal S512x512 .f32) (Q5 : Vec Ideal S512x1 .f32) (Q6 : Vec Ideal S512x512 .f32) (Q7 : Vec Ideal S1x512 .f32) (Q8 : Vec Ideal S1x1 .f32) : Prop where
  u11 : ∀ x : S512x1.Idx, Q0 x = A.U11 (ix2 last (c0 x))
  h : ∀ x : S512x512.Idx, Q1 x = A.h (ix2 (c0 x) (col t ht (c1 x)))
  z : ∀ x : S1x512.Idx, Q2 x = A.z (ix2 (0 : Fin 1) (col t ht (c1 x)))
  u21 : ∀ x : S512x1.Idx, Q3 x = A.U21 (ix2 last (c0 x))
  ht' : ∀ x : S512x512.Idx, Q4 x = A.ht (ix2 (c0 x) (col t ht (c1 x)))
  w01 : ∀ x : S512x1.Idx, Q5 x = A.W01 (ix2 last (c0 x))
  hb : ∀ x : S512x512.Idx, Q6 x = A.hb (ix2 (c0 x) (col t ht (c1 x)))
  zb : ∀ x : S1x512.Idx, Q7 x = A.zb (ix2 (0 : Fin 1) (col t ht (c1 x)))
  b : ∀ x : S1x1.Idx, Q8 x = A.bias (ix1 last)

/-- The lane sum the body takes over the 512 rows of a weight column times a state block, as the body spells it. -/
abbrev red (u : FVec Ideal S512x1 .f32) (X : FVec Ideal S512x512 .f32) : FVec Ideal S512 .f32 :=
  multiReduction (F := Ideal) .add [0] S512
    (mulf (broadcastTo S512x512 (shapeCast S512x1 u shapeCasts_S512x1_S512x1) broadcasts_S512x1_S512x512) X)
    0x00000000#32 reduces_S512x512_S512 (.inl rfl) rfl

/-- That lane sum at lane `y₁` is the detector row's matrix product entry at the point's column. -/
theorem red_eq (U : M2049x512) (X : M512x8192) (t : Nat) (ht : t < 16) (u : FVec Ideal S512x1 .f32) (V : FVec Ideal S512x512 .f32)
    (hu : ∀ x : S512x1.Idx, u x = U (ix2 last (c0 x))) (hV : ∀ x : S512x512.Idx, V x = X (ix2 (c0 x) (col t ht (c1 x))))
    (s : S512.Idx) (j : Fin 512) (hs : s = ix1 j) :
    red u V s = dot U X last (col t ht j) := by
  subst hs
  refine (colsum_apply u V j rfl).trans ?_
  simp only [hu, hV]
  rfl

/-- The boundary detector's block. -/
theorem E16_eq (A : Args) (t : Nat) (ht : t < 16) (Q0 : Vec Ideal S512x1 .f32) (Q1 : Vec Ideal S512x512 .f32) (Q2 : Vec Ideal S1x512 .f32) (Q3 : Vec Ideal S512x1 .f32) (Q4 : Vec Ideal S512x512 .f32) (Q5 : Vec Ideal S512x1 .f32) (Q6 : Vec Ideal S512x512 .f32) (Q7 : Vec Ideal S1x512 .f32) (Q8 : Vec Ideal S1x1 .f32)
    (R : ReadsZ A t ht Q0 Q1 Q2 Q3 Q4 Q5 Q6 Q7 Q8) (y : S1x512.Idx) :
    E16 (F := Ideal) Q0 Q1 Q2 Q3 Q4 Q5 Q6 Q7 Q8 y = zHat A (col t ht (c1 y)) := by
  have e1 : ix16_1 y = ix1 (c1 y) := funext fun a => Fin.ext (by match a with | ⟨0, _⟩ => rfl)
  have e3 : ix16_3 y = ix1 (c1 y) := funext fun a => Fin.ext (by match a with | ⟨0, _⟩ => rfl)
  have e5 : ix16_5 y = ix1 (c1 y) := funext fun a => Fin.ext (by match a with | ⟨0, _⟩ => rfl)
  have s1 := red_eq A.U11 A.h t ht Q0 Q1 R.u11 R.h (ix16_1 y) (c1 y) e1
  have s2 := red_eq A.U21 A.ht t ht Q3 Q4 R.u21 R.ht' (ix16_3 y) (c1 y) e3
  have s3 := red_eq A.W01 A.hb t ht Q5 Q6 R.w01 R.hb (ix16_5 y) (c1 y) e5
  have key : ((red Q0 Q1 (ix16_1 y) * (one - Q2 (ix16_2 y)) + red Q3 Q4 (ix16_3 y) * Q2 (ix16_4 y))
      + red Q5 Q6 (ix16_5 y) * Q7 (ix16_6 y)) + Q8 (ix16_7 y) = gate A last (col t ht (c1 y)) := by
    simp only [s1, s2, s3, R.z, R.zb, R.b]
    rfl
  exact congrArg (fun v => min one (max zero (Ideal.div (v * one + one) two))) key

end Cert.Scd.Ker

end
-- ==== Proof.KerBlock.lean ====
/-
  What each window's block holds, in terms of the argument arrays as launched.

  The grid has 16 points along the batch axis. At point `t` the four state arrays' windows and the two indicator
  rows' windows hold columns `512·t … 512·t + 511` (block index `(0, t)`, decided over the grid); the other
  eight windows hold their whole array at every point (block index `(0, 0)`). Those eight arrays are written by the
  host operations before the launch: rows `0 … 2047` of a weight matrix (after the rounding to bf16, the identity
  here), its row 2048 re-laid as a 512 × 1 column, the biases as a 2049 × 1 column cut into rows `0 … 2047` and
  row 2048. An element of a block sits in its array, on each axis, at block index × block size + its coordinate.
-/
import proofs.«125907_j11879879544318_2_alg».proof.Proof.KerE
import Idealize.ShloMosaic.Lib.StableHlo.Run

noncomputable section

namespace Cert.Scd.Ker

open Cert.KernelIdeal Cert.KernelIdeal.Gen Idealize.ShloMosaic Idealize.ShloMosaic.TcCoe Idealize.ShloMosaic.ValueIdx
  Idealize.SL.Sem Idealize.ShloMosaic.StableHlo Cert.Scd

variable (m : (ℓ : Loc nD τ sig) → Buf (Elt Ideal) ℓ)

/-- Core `c`'s ten argument arrays as launched. -/
def Aof (c : Dev nD) : Args where
  c := m ((c : Thread nD τ).loc main_arg0)
  hb := m ((c : Thread nD τ).loc main_arg1)
  h := m ((c : Thread nD τ).loc main_arg2)
  ht := m ((c : Thread nD τ).loc main_arg3)
  z := m ((c : Thread nD τ).loc main_arg4)
  zb := m ((c : Thread nD τ).loc main_arg5)
  U11 := m ((c : Thread nD τ).loc main_arg6)
  U21 := m ((c : Thread nD τ).loc main_arg7)
  W01 := m ((c : Thread nD τ).loc main_arg8)
  bias := m ((c : Thread nD τ).loc main_arg9)

/-- The block indices of the windows that move with the grid point: `(0, t)`. -/
theorem idx_moving : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_14.index t (0 : Fin 2) = 0 ∧ win0_14.index t (1 : Fin 2) = t.val
    ∧ win0_15.index t (0 : Fin 2) = 0 ∧ win0_15.index t (1 : Fin 2) = t.val
    ∧ win0_16.index t (0 : Fin 2) = 0 ∧ win0_16.index t (1 : Fin 2) = t.val :=
  (by decide +kernel : ∀ t : Fin grid0.N, _)

/-- The block indices of the windows that hold their whole array: `(0, 0)`. -/
theorem idx_whole : ∀ t : Fin cfg0.N,
    win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0 :=
  (by decide +kernel : ∀ t : Fin grid0.N, _)

/-- A grid point's number is below 16. -/
theorem lt16 (t : Fin cfg0.N) : t.val < 16 := by
  have h := t.isLt
  have hN : cfg0.N = 16 := N_0
  omega

/-! ## The windows that move with the grid point -/

theorem rd0 (c : Dev nD) (t : Fin cfg0.N) (x : S512x512.Idx) :
    iblk m c 0 t x = (Aof m c).c (ix2 (c0 x) (col t.val (lt16 t) (c1 x))) := by
  show V m c main_arg0 (((cfg0.win 0).blk t).view.emb x) = _
  rw [V_main_arg0]
  refine congrArg (m ((c : Thread nD τ).loc main_arg0)) ?_
  obtain ⟨a0, b0, a1, b1, a2, b2, a3, b3, a4, b4, a5, b5, a14, b14, a15, b15, a16, b16⟩ := idx_moving t
  funext a; apply Fin.ext
  match a with
  | ⟨0, _⟩ => show win0_0.index t (0 : Fin 2) * 512 + 1 * (x 0).val = (x 0).val; omega
  | ⟨1, _⟩ => show win0_0.index t (1 : Fin 2) * 512 + 1 * (x 1).val = t.val * 512 + (x 1).val; omega

theorem rd1 (c : Dev nD) (t : Fin cfg0.N) (x : S512x512.Idx) :
    iblk m c 1 t x = (Aof m c).hb (ix2 (c0 x) (col t.val (lt16 t) (c1 x))) := by
  show V m c main_arg1 (((cfg0.win 1).blk t).view.emb x) = _
  rw [V_main_arg1]
  refine congrArg (m ((c : Thread nD τ).loc main_arg1)) ?_
  obtain ⟨a0, b0, a1, b1, a2, b2, a3, b3, a4, b4, a5, b5, a14, b14, a15, b15, a16, b16⟩ := idx_moving t
  funext a; apply Fin.ext
  match a with
  | ⟨0, _⟩ => show win0_1.index t (0 : Fin 2) * 512 + 1 * (x 0).val = (x 0).val; omega
  | ⟨1, _⟩ => show win0_1.index t (1 : Fin 2) * 512 + 1 * (x 1).val = t.val * 512 + (x 1).val; omega

theorem rd2 (c : Dev nD) (t : Fin cfg0.N) (x : S512x512.Idx) :
    iblk m c 2 t x = (Aof m c).h (ix2 (c0 x) (col t.val (lt16 t) (c1 x))) := by
  show V m c main_arg2 (((cfg0.win 2).blk t).view.emb x) = _
  rw [V_main_arg2]
  refine congrArg (m ((c : Thread nD τ).loc main_arg2)) ?_
  obtain ⟨a0, b0, a1, b1, a2, b2, a3, b3, a4, b4, a5, b5, a14, b14, a15, b15, a16, b16⟩ := idx_moving t
  funext a; apply Fin.ext
  match a with
  | ⟨0, _⟩ => show win0_2.index t (0 : Fin 2) * 512 + 1 * (x 0).val = (x 0).val; omega
  | ⟨1, _⟩ => show win0_2.index t (1 : Fin 2) * 512 + 1 * (x 1).val = t.val * 512 + (x 1).val; omega

theorem rd3 (c : Dev nD) (t : Fin cfg0.N) (x : S512x512.Idx) :
    iblk m c 3 t x = (Aof m c).ht (ix2 (c0 x) (col t.val (lt16 t) (c1 x))) := by
  show V m c main_arg3 (((cfg0.win 3).blk t).view.emb x) = _
  rw [V_main_arg3]
  refine congrArg (m ((c : Thread nD τ).loc main_arg3)) ?_
  obtain ⟨a0, b0, a1, b1, a2, b2, a3, b3, a4, b4, a5, b5, a14, b14, a15, b15, a16, b16⟩ := idx_moving t
  funext a; apply Fin.ext
  match a with
  | ⟨0, _⟩ => show win0_3.index t (0 : Fin 2) * 512 + 1 * (x 0).val = (x 0).val; omega
  | ⟨1, _⟩ => show win0_3.index t (1 : Fin 2) * 512 + 1 * (x 1).val = t.val * 512 + (x 1).val; omega

theorem rd4 (c : Dev nD) (t : Fin cfg0.N) (x : S1x512.Idx) :
    iblk m c 4 t x = (Aof m c).z (ix2 (0 : Fin 1) (col t.val (lt16 t) (c1 x))) := by
  show V m c main_arg4 (((cfg0.win 4).blk t).view.emb x) = _
  rw [V_main_arg4]
  refine congrArg (m ((c : Thread nD τ).loc main_arg4)) ?_
  obtain ⟨a0, b0, a1, b1, a2, b2, a3, b3, a4, b4, a5, b5, a14, b14, a15, b15, a16, b16⟩ := idx_moving t
  have hx0 : (x 0).val < 1 := idx2_lt0 x
  funext a; apply Fin.ext
  match a with
  | ⟨0, _⟩ => show win0_4.index t (0 : Fin 2) * 1 + 1 * (x 0).val = 0; omega
  | ⟨1, _⟩ => show win0_4.index t (1 : Fin 2) * 512 + 1 * (x 1).val = t.val * 512 + (x 1).val; omega

theorem rd5 (c : Dev nD) (t : Fin cfg0.N) (x : S1x512.Idx) :
    iblk m c 5 t x = (Aof m c).zb (ix2 (0 : Fin 1) (col t.val (lt16 t) (c1 x))) := by
  show V m c main_arg5 (((cfg0.win 5).blk t).view.emb x) = _
  rw [V_main_arg5]
  refine congrArg (m ((c : Thread nD τ).loc main_arg5)) ?_
  obtain ⟨a0, b0, a1, b1, a2, b2, a3, b3, a4, b4, a5, b5, a14, b14, a15, b15, a16, b16⟩ := idx_moving t
  have hx0 : (x 0).val < 1 := idx2_lt0 x
  funext a; apply Fin.ext
  match a with
  | ⟨0, _⟩ => show win0_5.index t (0 : Fin 2) * 1 + 1 * (x 0).val = 0; omega
  | ⟨1, _⟩ => show win0_5.index t (1 : Fin 2) * 512 + 1 * (x 1).val = t.val * 512 + (x 1).val; omega

/-! ## The arrays the host operations write before the launch -/

/-- Rows `0 … 2047` of the weight matrix (rounded to bf16: the identity on the extended reals). -/
theorem V_main_v1 (c : Dev nD) : (V m c main_v1 : S2048x512.Idx → EReal)
    = extractStridedSlice S2048x512 ![0, 0] (truncf (F := Ideal) .bf16 (m ((c : Thread nD τ).loc main_arg6)) bitsLt_bf16_f32) slices_S2049x512_S2048x512_0_0 := by
  dsimp only [V, hostOps0]; after_results

theorem rd6 (c : Dev nD) (t : Fin cfg0.N) (x : S2048x512.Idx) :
    iblk m c 6 t x = (Aof m c).U11 (ix2 (up (c0 x)) (c1 x)) := by
  obtain ⟨a6, b6, a7, b7, a8, b8, a9, b9, a10, b10, a11, b11, a12, b12, a13, b13⟩ := idx_whole t
  have he : ((cfg0.win 6).blk t).view.emb x = x := by
    funext a; apply Fin.ext
    match a with
    | ⟨0, _⟩ => show win0_6.index t (0 : Fin 2) * 2048 + 1 * (x 0).val = (x 0).val; omega
    | ⟨1, _⟩ => show win0_6.index t (1 : Fin 2) * 512 + 1 * (x 1).val = (x 1).val; omega
  show V m c main_v1 (((cfg0.win 6).blk t).view.emb x) = _
  rw [he]
  refine (congrFun (V_main_v1 m c) x).trans ?_
  exact extractStridedSlice_apply ![0, 0] (truncf (F := Ideal) .bf16 (m ((c : Thread nD τ).loc main_arg6)) bitsLt_bf16_f32) slices_S2049x512_S2048x512_0_0 x
    (ix2 (up (c0 x)) (c1 x)) (fun a => match a with
      | ⟨0, _⟩ => by show (x 0).val = 0 + (x 0).val; omega
      | ⟨1, _⟩ => by show (x 1).val = 0 + (x 1).val; omega)

/-- Rows `0 … 2047` of the weight matrix (rounded to bf16: the identity on the extended reals). -/
theorem V_main_v5 (c : Dev nD) : (V m c main_v5 : S2048x512.Idx → EReal)
    = extractStridedSlice S2048x512 ![0, 0] (truncf (F := Ideal) .bf16 (m ((c : Thread nD τ).loc main_arg7)) bitsLt_bf16_f32) slices_S2049x512_S2048x512_0_0 := by
  dsimp only [V, hostOps0]; after_results

theorem rd7 (c : Dev nD) (t : Fin cfg0.N) (x : S2048x512.Idx) :
    iblk m c 7 t x = (Aof m c).U21 (ix2 (up (c0 x)) (c1 x)) := by
  obtain ⟨a6, b6, a7, b7, a8, b8, a9, b9, a10, b10, a11, b11, a12, b12, a13, b13⟩ := idx_whole t
  have he : ((cfg0.win 7).blk t).view.emb x = x := by
    funext a; apply Fin.ext
    match a with
    | ⟨0, _⟩ => show win0_7.index t (0 : Fin 2) * 2048 + 1 * (x 0).val = (x 0).val; omega
    | ⟨1, _⟩ => show win0_7.index t (1 : Fin 2) * 512 + 1 * (x 1).val = (x 1).val; omega
  show V m c main_v5 (((cfg0.win 7).blk t).view.emb x) = _
  rw [he]
  refine (congrFun (V_main_v5 m c) x).trans ?_
  exact extractStridedSlice_apply ![0, 0] (truncf (F := Ideal) .bf16 (m ((c : Thread nD τ).loc main_arg7)) bitsLt_bf16_f32) slices_S2049x512_S2048x512_0_0 x
    (ix2 (up (c0 x)) (c1 x)) (fun a => match a with
      | ⟨0, _⟩ => by show (x 0).val = 0 + (x 0).val; omega
      | ⟨1, _⟩ => by show (x 1).val = 0 + (x 1).val; omega)

/-- Rows `0 … 2047` of the weight matrix (rounded to bf16: the identity on the extended reals). -/
theorem V_main_v9 (c : Dev nD) : (V m c main_v9 : S2048x512.Idx → EReal)
    = extractStridedSlice S2048x512 ![0, 0] (truncf (F := Ideal) .bf16 (m ((c : Thread nD τ).loc main_arg8)) bitsLt_bf16_f32) slices_S2049x512_S2048x512_0_0 := by
  dsimp only [V, hostOps0]; after_results

theorem rd8 (c : Dev nD) (t : Fin cfg0.N) (x : S2048x512.Idx) :
    iblk m c 8 t x = (Aof m c).W01 (ix2 (up (c0 x)) (c1 x)) := by
  obtain ⟨a6, b6, a7, b7, a8, b8, a9, b9, a10, b10, a11, b11, a12, b12, a13, b13⟩ := idx_whole t
  have he : ((cfg0.win 8).blk t).view.emb x = x := by
    funext a; apply Fin.ext
    match a with
    | ⟨0, _⟩ => show win0_8.index t (0 : Fin 2) * 2048 + 1 * (x 0).val = (x 0).val; omega
    | ⟨1, _⟩ => show win0_8.index t (1 : Fin 2) * 512 + 1 * (x 1).val = (x 1).val; omega
  show V m c main_v9 (((cfg0.win 8).blk t).view.emb x) = _
  rw [he]
  refine (congrFun (V_main_v9 m c) x).trans ?_
  exact extractStridedSlice_apply ![0, 0] (truncf (F := Ideal) .bf16 (m ((c : Thread nD τ).loc main_arg8)) bitsLt_bf16_f32) slices_S2049x512_S2048x512_0_0 x
    (ix2 (up (c0 x)) (c1 x)) (fun a => match a with
      | ⟨0, _⟩ => by show (x 0).val = 0 + (x 0).val; omega
      | ⟨1, _⟩ => by show (x 1).val = 0 + (x 1).val; omega)

/-- Row 2048 of the weight matrix, re-laid as a 512 × 1 column. -/
theorem V_main_v3 (c : Dev nD) : (V m c main_v3 : S512x1.Idx → EReal)
    = shapeCast S512x1 (extractStridedSlice S1x512 ![2048, 0] (m ((c : Thread nD τ).loc main_arg6)) slices_S2049x512_S1x512_2048_0) shapeCasts_S1x512_S512x1 := by
  dsimp only [V, hostOps0]; after_results; rfl

theorem rd9 (c : Dev nD) (t : Fin cfg0.N) (x : S512x1.Idx) :
    iblk m c 9 t x = (Aof m c).U11 (ix2 last (c0 x)) := by
  obtain ⟨a6, b6, a7, b7, a8, b8, a9, b9, a10, b10, a11, b11, a12, b12, a13, b13⟩ := idx_whole t
  have hx1 : (x 1).val < 1 := idx2_lt1 x
  have he : ((cfg0.win 9).blk t).view.emb x = x := by
    funext a; apply Fin.ext
    match a with
    | ⟨0, _⟩ => show win0_9.index t (0 : Fin 2) * 512 + 1 * (x 0).val = (x 0).val; omega
    | ⟨1, _⟩ => show win0_9.index t (1 : Fin 2) * 1 + 1 * (x 1).val = (x 1).val; omega
  show V m c main_v3 (((cfg0.win 9).blk t).view.emb x) = _
  rw [he]
  refine (congrFun (V_main_v3 m c) x).trans ?_
  refine (shapeCast_apply _ shapeCasts_S1x512_S512x1 x (ix2 (0 : Fin 1) (c0 x)) (by
    rw [Shape.rowMajor_val_two, Shape.rowMajor_val_two]
    show 0 * 512 + (x 0).val = (x 0).val * 1 + (x 1).val; omega)).trans ?_
  exact extractStridedSlice_apply ![2048, 0] (m ((c : Thread nD τ).loc main_arg6)) slices_S2049x512_S1x512_2048_0 (ix2 (0 : Fin 1) (c0 x))
    (ix2 last (c0 x)) (fun a => match a with
      | ⟨0, _⟩ => by show 2048 = 2048 + 0; omega
      | ⟨1, _⟩ => by show (x 0).val = 0 + (x 0).val; omega)

/-- Row 2048 of the weight matrix, re-laid as a 512 × 1 column. -/
theorem V_main_v7 (c : Dev nD) : (V m c main_v7 : S512x1.Idx → EReal)
    = shapeCast S512x1 (extractStridedSlice S1x512 ![2048, 0] (m ((c : Thread nD τ).loc main_arg7)) slices_S2049x512_S1x512_2048_0) shapeCasts_S1x512_S512x1 := by
  dsimp only [V, hostOps0]; after_results; rfl

theorem rd10 (c : Dev nD) (t : Fin cfg0.N) (x : S512x1.Idx) :
    iblk m c 10 t x = (Aof m c).U21 (ix2 last (c0 x)) := by
  obtain ⟨a6, b6, a7, b7, a8, b8, a9, b9, a10, b10, a11, b11, a12, b12, a13, b13⟩ := idx_whole t
  have hx1 : (x 1).val < 1 := idx2_lt1 x
  have he : ((cfg0.win 10).blk t).view.emb x = x := by
    funext a; apply Fin.ext
    match a with
    | ⟨0, _⟩ => show win0_10.index t (0 : Fin 2) * 512 + 1 * (x 0).val = (x 0).val; omega
    | ⟨1, _⟩ => show win0_10.index t (1 : Fin 2) * 1 + 1 * (x 1).val = (x 1).val; omega
  show V m c main_v7 (((cfg0.win 10).blk t).view.emb x) = _
  rw [he]
  refine (congrFun (V_main_v7 m c) x).trans ?_
  refine (shapeCast_apply _ shapeCasts_S1x512_S512x1 x (ix2 (0 : Fin 1) (c0 x)) (by
    rw [Shape.rowMajor_val_two, Shape.rowMajor_val_two]
    show 0 * 512 + (x 0).val = (x 0).val * 1 + (x 1).val; omega)).trans ?_
  exact extractStridedSlice_apply ![2048, 0] (m ((c : Thread nD τ).loc main_arg7)) slices_S2049x512_S1x512_2048_0 (ix2 (0 : Fin 1) (c0 x))
    (ix2 last (c0 x)) (fun a => match a with
      | ⟨0, _⟩ => by show 2048 = 2048 + 0; omega
      | ⟨1, _⟩ => by show (x 0).val = 0 + (x 0).val; omega)

/-- Row 2048 of the weight matrix, re-laid as a 512 × 1 column. -/
theorem V_main_v11 (c : Dev nD) : (V m c main_v11 : S512x1.Idx → EReal)
    = shapeCast S512x1 (extractStridedSlice S1x512 ![2048, 0] (m ((c : Thread nD τ).loc main_arg8)) slices_S2049x512_S1x512_2048_0) shapeCasts_S1x512_S512x1 := by
  dsimp only [V, hostOps0]; after_results; rfl

theorem rd11 (c : Dev nD) (t : Fin cfg0.N) (x : S512x1.Idx) :
    iblk m c 11 t x = (Aof m c).W01 (ix2 last (c0 x)) := by
  obtain ⟨a6, b6, a7, b7, a8, b8, a9, b9, a10, b10, a11, b11, a12, b12, a13, b13⟩ := idx_whole t
  have hx1 : (x 1).val < 1 := idx2_lt1 x
  have he : ((cfg0.win 11).blk t).view.emb x = x := by
    funext a; apply Fin.ext
    match a with
    | ⟨0, _⟩ => show win0_11.index t (0 : Fin 2) * 512 + 1 * (x 0).val = (x 0).val; omega
    | ⟨1, _⟩ => show win0_11.index t (1 : Fin 2) * 1 + 1 * (x 1).val = (x 1).val; omega
  show V m c main_v11 (((cfg0.win 11).blk t).view.emb x) = _
  rw [he]
  refine (congrFun (V_main_v11 m c) x).trans ?_
  refine (shapeCast_apply _ shapeCasts_S1x512_S512x1 x (ix2 (0 : Fin 1) (c0 x)) (by
    rw [Shape.rowMajor_val_two, Shape.rowMajor_val_two]
    show 0 * 512 + (x 0).val = (x 0).val * 1 + (x 1).val; omega)).trans ?_
  exact extractStridedSlice_apply ![2048, 0] (m ((c : Thread nD τ).loc main_arg8)) slices_S2049x512_S1x512_2048_0 (ix2 (0 : Fin 1) (c0 x))
    (ix2 last (c0 x)) (fun a => match a with
      | ⟨0, _⟩ => by show 2048 = 2048 + 0; omega
      | ⟨1, _⟩ => by show (x 0).val = 0 + (x 0).val; omega)

/-- The biases as a 2049 × 1 column, rows `0 … 2047`. -/
theorem V_main_v13 (c : Dev nD) : (V m c main_v13 : S2048x1.Idx → EReal)
    = extractStridedSlice S2048x1 ![0, 0] (shapeCast S2049x1 (m ((c : Thread nD τ).loc main_arg9)) shapeCasts_S2049_S2049x1) slices_S2049x1_S2048x1_0_0 := by
  dsimp only [V, hostOps0]; after_results; rfl

theorem rd12 (c : Dev nD) (t : Fin cfg0.N) (x : S2048x1.Idx) :
    iblk m c 12 t x = (Aof m c).bias (ix1 (up (c0 x))) := by
  obtain ⟨a6, b6, a7, b7, a8, b8, a9, b9, a10, b10, a11, b11, a12, b12, a13, b13⟩ := idx_whole t
  have hx1 : (x 1).val < 1 := idx2_lt1 x
  have he : ((cfg0.win 12).blk t).view.emb x = x := by
    funext a; apply Fin.ext
    match a with
    | ⟨0, _⟩ => show win0_12.index t (0 : Fin 2) * 2048 + 1 * (x 0).val = (x 0).val; omega
    | ⟨1, _⟩ => show win0_12.index t (1 : Fin 2) * 1 + 1 * (x 1).val = (x 1).val; omega
  show V m c main_v13 (((cfg0.win 12).blk t).view.emb x) = _
  rw [he]
  refine (congrFun (V_main_v13 m c) x).trans ?_
  refine (extractStridedSlice_apply ![0, 0] (shapeCast S2049x1 (m ((c : Thread nD τ).loc main_arg9)) shapeCasts_S2049_S2049x1)
    slices_S2049x1_S2048x1_0_0 x (ix2 (up (c0 x)) (0 : Fin 1)) (fun a => match a with
      | ⟨0, _⟩ => by show (x 0).val = 0 + (x 0).val; omega
      | ⟨1, _⟩ => by show 0 = 0 + (x 1).val; omega)).trans ?_
  exact shapeCast_apply (m ((c : Thread nD τ).loc main_arg9)) shapeCasts_S2049_S2049x1 (ix2 (up (c0 x)) (0 : Fin 1)) (ix1 (up (c0 x))) (by
    show (S2049.rowMajor (ix1 (up (c0 x)))).val = (S2049x1.rowMajor (ix2 (up (c0 x)) (0 : Fin 1))).val
    rw [Shape.rowMajor_val_one, Shape.rowMajor_val_two]
    show (x 0).val = (x 0).val * 1 + 0; omega)

/-- The biases as a 2049 × 1 column, row 2048. -/
theorem V_main_v14 (c : Dev nD) : (V m c main_v14 : S1x1.Idx → EReal)
    = extractStridedSlice S1x1 ![2048, 0] (shapeCast S2049x1 (m ((c : Thread nD τ).loc main_arg9)) shapeCasts_S2049_S2049x1) slices_S2049x1_S1x1_2048_0 := by
  dsimp only [V, hostOps0]; after_results; rfl

theorem rd13 (c : Dev nD) (t : Fin cfg0.N) (x : S1x1.Idx) :
    iblk m c 13 t x = (Aof m c).bias (ix1 last) := by
  obtain ⟨a6, b6, a7, b7, a8, b8, a9, b9, a10, b10, a11, b11, a12, b12, a13, b13⟩ := idx_whole t
  have hx0 : (x 0).val < 1 := idx2_lt0 x
  have hx1 : (x 1).val < 1 := idx2_lt1 x
  have he : ((cfg0.win 13).blk t).view.emb x = x := by
    funext a; apply Fin.ext
    match a with
    | ⟨0, _⟩ => show win0_13.index t (0 : Fin 2) * 1 + 1 * (x 0).val = (x 0).val; omega
    | ⟨1, _⟩ => show win0_13.index t (1 : Fin 2) * 1 + 1 * (x 1).val = (x 1).val; omega
  show V m c main_v14 (((cfg0.win 13).blk t).view.emb x) = _
  rw [he]
  refine (congrFun (V_main_v14 m c) x).trans ?_
  refine (extractStridedSlice_apply ![2048, 0] (shapeCast S2049x1 (m ((c : Thread nD τ).loc main_arg9)) shapeCasts_S2049_S2049x1)
    slices_S2049x1_S1x1_2048_0 x (ix2 last (0 : Fin 1)) (fun a => match a with
      | ⟨0, _⟩ => by show 2048 = 2048 + (x 0).val; omega
      | ⟨1, _⟩ => by show 0 = 0 + (x 1).val; omega)).trans ?_
  exact shapeCast_apply (m ((c : Thread nD τ).loc main_arg9)) shapeCasts_S2049_S2049x1 (ix2 last (0 : Fin 1)) (ix1 last) (by
    show (S2049.rowMajor (ix1 last)).val = (S2049x1.rowMajor (ix2 last (0 : Fin 1))).val
    rw [Shape.rowMajor_val_one, Shape.rowMajor_val_two]
    show 2048 = 2048 * 1 + 0; omega)

/-! ## The loads of the three payloads read the argument arrays -/

theorem reads (c : Dev nD) (t : Fin cfg0.N) :
    Reads (Aof m c) t.val (lt16 t) (iblk m c 4 t) (iblk m c 5 t) (iblk m c 2 t) (iblk m c 1 t) (iblk m c 3 t)
      (iblk m c 6 t) (iblk m c 7 t) (iblk m c 8 t) (iblk m c 12 t) (iblk m c 0 t) where
  z := rd4 m c t
  zb := rd5 m c t
  h := rd2 m c t
  hb := rd1 m c t
  ht' := rd3 m c t
  u11 := rd6 m c t
  u21 := rd7 m c t
  w01 := rd8 m c t
  b := rd12 m c t
  c := rd0 m c t

theorem readsZ (c : Dev nD) (t : Fin cfg0.N) :
    ReadsZ (Aof m c) t.val (lt16 t) (iblk m c 9 t) (iblk m c 2 t) (iblk m c 4 t) (iblk m c 10 t) (iblk m c 3 t)
      (iblk m c 11 t) (iblk m c 1 t) (iblk m c 5 t) (iblk m c 13 t) where
  u11 := rd9 m c t
  h := rd2 m c t
  z := rd4 m c t
  u21 := rd10 m c t
  ht' := rd3 m c t
  w01 := rd11 m c t
  hb := rd1 m c t
  zb := rd5 m c t
  b := rd13 m c t

/-! ## Where an output block's element sits in its array -/

theorem emb14 (t : Fin cfg0.N) (y : S512x512.Idx) :
    ((cfg0.win 14).blk t).view.emb y = ix2 (c0 y) (col t.val (lt16 t) (c1 y)) := by
  obtain ⟨a0, b0, a1, b1, a2, b2, a3, b3, a4, b4, a5, b5, a14, b14, a15, b15, a16, b16⟩ := idx_moving t
  funext a; apply Fin.ext
  match a with
  | ⟨0, _⟩ => show win0_14.index t (0 : Fin 2) * 512 + 1 * (y 0).val = (y 0).val; omega
  | ⟨1, _⟩ => show win0_14.index t (1 : Fin 2) * 512 + 1 * (y 1).val = t.val * 512 + (y 1).val; omega

theorem emb15 (t : Fin cfg0.N) (y : S512x512.Idx) :
    ((cfg0.win 15).blk t).view.emb y = ix2 (c0 y) (col t.val (lt16 t) (c1 y)) := by
  obtain ⟨a0, b0, a1, b1, a2, b2, a3, b3, a4, b4, a5, b5, a14, b14, a15, b15, a16, b16⟩ := idx_moving t
  funext a; apply Fin.ext
  match a with
  | ⟨0, _⟩ => show win0_15.index t (0 : Fin 2) * 512 + 1 * (y 0).val = (y 0).val; omega
  | ⟨1, _⟩ => show win0_15.index t (1 : Fin 2) * 512 + 1 * (y 1).val = t.val * 512 + (y 1).val; omega

theorem emb16 (t : Fin cfg0.N) (y : S1x512.Idx) :
    ((cfg0.win 16).blk t).view.emb y = ix2 (0 : Fin 1) (col t.val (lt16 t) (c1 y)) := by
  obtain ⟨a0, b0, a1, b1, a2, b2, a3, b3, a4, b4, a5, b5, a14, b14, a15, b15, a16, b16⟩ := idx_moving t
  have hy0 : (y 0).val < 1 := idx2_lt0 y
  funext a; apply Fin.ext
  match a with
  | ⟨0, _⟩ => show win0_16.index t (0 : Fin 2) * 1 + 1 * (y 0).val = 0; omega
  | ⟨1, _⟩ => show win0_16.index t (1 : Fin 2) * 512 + 1 * (y 1).val = t.val * 512 + (y 1).val; omega

end Cert.Scd.Ker

end
-- ==== Proof.KerFinal.lean ====
/-
  The kernel's three result arrays are the cell function of the argument arrays.

  What point `t` writes back to an output window is its block of the specification (the block the body leaves is
  the specification on the point's columns, and the block sits in the array at those columns); the 16 points' blocks
  cover the array (column `b` belongs to point `⌊b / 512⌋`); so after the run each result array IS the
  specification, and the arguments are unchanged.
-/
import proofs.«125907_j11879879544318_2_alg».proof.Proof.KerBlock

noncomputable section

namespace Cert.Scd.Ker

open Cert.KernelIdeal Cert.KernelIdeal.Gen Cert.KernelIdeal.ValueP Idealize.ShloMosaic Idealize.ShloMosaic.TcCoe
  Idealize.ShloMosaic.ValueIdx Idealize.SL.Sem Cert.Scd
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What a point writes back is its block of the specification -/

theorem flushed14_eq (c : Dev nD) (t : Fin cfg0.N) :
    (dats m 0 c).flushed 14 t = ((cfg0.win 14).blk t).view.read (Elt Ideal) (Hnew (Aof m c)) := by
  rw [flushed14]
  unfold out0_14
  simp only [View.ld_unit_zero (S := S1x512) hz, View.ld_unit_zero (S := S512x512) hz, View.ld_unit_zero (S := S2048x512) hz,
    View.ld_unit_zero (S := S2048x1) hz, View.ld_unit_zero (S := S512x1) hz, View.ld_unit_zero (S := S1x1) hz]
  funext y
  refine (canon14_eq (iblk m c 4 t) (iblk m c 5 t) (iblk m c 2 t) (iblk m c 1 t) (iblk m c 3 t) (iblk m c 6 t) (iblk m c 7 t) (iblk m c 8 t) (iblk m c 12 t) (iblk m c 0 t) y).trans ?_
  refine (E14_eq (Aof m c) t.val (lt16 t) (iblk m c 4 t) (iblk m c 5 t) (iblk m c 2 t) (iblk m c 1 t) (iblk m c 3 t) (iblk m c 6 t) (iblk m c 7 t) (iblk m c 8 t) (iblk m c 12 t) (iblk m c 0 t) (reads m c t) y).trans ?_
  show _ = Hnew (Aof m c) (((cfg0.win 14).blk t).view.emb y)
  rw [emb14]
  rfl

theorem flushed15_eq (c : Dev nD) (t : Fin cfg0.N) :
    (dats m 0 c).flushed 15 t = ((cfg0.win 15).blk t).view.read (Elt Ideal) (Cnew (Aof m c)) := by
  rw [flushed15]
  unfold out0_15
  simp only [View.ld_unit_zero (S := S1x512) hz, View.ld_unit_zero (S := S512x512) hz, View.ld_unit_zero (S := S2048x512) hz,
    View.ld_unit_zero (S := S2048x1) hz, View.ld_unit_zero (S := S512x1) hz, View.ld_unit_zero (S := S1x1) hz]
  funext y
  refine (canon15_eq (iblk m c 4 t) (iblk m c 5 t) (iblk m c 2 t) (iblk m c 1 t) (iblk m c 3 t) (iblk m c 6 t) (iblk m c 7 t) (iblk m c 8 t) (iblk m c 12 t) (iblk m c 0 t) y).trans ?_
  refine (E15_eq (Aof m c) t.val (lt16 t) (iblk m c 4 t) (iblk m c 5 t) (iblk m c 2 t) (iblk m c 1 t) (iblk m c 3 t) (iblk m c 6 t) (iblk m c 7 t) (iblk m c 8 t) (iblk m c 12 t) (iblk m c 0 t) (reads m c t) y).trans ?_
  show _ = Cnew (Aof m c) (((cfg0.win 15).blk t).view.emb y)
  rw [emb15]
  rfl

theorem flushed16_eq (c : Dev nD) (t : Fin cfg0.N) :
    (dats m 0 c).flushed 16 t = ((cfg0.win 16).blk t).view.read (Elt Ideal) (Zhat (Aof m c)) := by
  rw [flushed16]
  unfold out0_16
  simp only [View.ld_unit_zero (S := S1x512) hz, View.ld_unit_zero (S := S512x512) hz, View.ld_unit_zero (S := S2048x512) hz,
    View.ld_unit_zero (S := S2048x1) hz, View.ld_unit_zero (S := S512x1) hz, View.ld_unit_zero (S := S1x1) hz]
  funext y
  refine (canon16_eq (iblk m c 9 t) (iblk m c 2 t) (iblk m c 4 t) (iblk m c 10 t) (iblk m c 3 t) (iblk m c 11 t) (iblk m c 1 t) (iblk m c 5 t) (iblk m c 13 t) y).trans ?_
  refine (E16_eq (Aof m c) t.val (lt16 t) (iblk m c 9 t) (iblk m c 2 t) (iblk m c 4 t) (iblk m c 10 t) (iblk m c 3 t) (iblk m c 11 t) (iblk m c 1 t) (iblk m c 5 t) (iblk m c 13 t) (readsZ m c t) y).trans ?_
  show _ = Zhat (Aof m c) (((cfg0.win 16).blk t).view.emb y)
  rw [emb16]
  rfl

/-! ## The 16 blocks cover each result array -/

/-- An index of the array is in point `t`'s block iff each coordinate is in the block's range on its axis. -/
theorem mem_blk14 (t : Fin cfg0.N) (i : S512x8192.Idx) :
    i ∈ ((cfg0.win 14).blk t).view.set ↔ ∀ a : Fin 2, win0_14.index t a * S512x512.size a ≤ (i a).val ∧ (i a).val < win0_14.index t a * S512x512.size a + S512x512.size a := by
  show i ∈ ((View.whole main_v15_0).slice (win0_14.rect t)).set ↔ _
  rw [View.set_slice_whole, Rect.mem_set_unit]
  exact Iff.rfl

/-- Every index of the array is in the block of the point that owns its batch column, `⌊b / 512⌋`. -/
theorem cover14 (i : S512x8192.Idx) :
    ∃ t : Fin cfg0.N, (cfg0.win 14).flush t = true ∧ i ∈ ((cfg0.win 14).blk t).view.set := by
  have hi0 : (i 0).val < 512 := idx2_lt0 i
  have hi1 : (i 1).val < 8192 := idx2_lt1 i
  have hN : cfg0.N = 16 := N_0
  obtain ⟨t, htv⟩ : ∃ t : Fin cfg0.N, t.val = (i 1).val / 512 := ⟨⟨(i 1).val / 512, by omega⟩, rfl⟩
  obtain ⟨a0, b0, a1, b1, a2, b2, a3, b3, a4, b4, a5, b5, a14, b14, a15, b15, a16, b16⟩ := idx_moving t
  refine ⟨t, flush0_14 t, ?_⟩
  rw [mem_blk14]
  intro a
  match a with
  | ⟨0, _⟩ => show win0_14.index t (0 : Fin 2) * 512 ≤ (i 0).val ∧ (i 0).val < win0_14.index t (0 : Fin 2) * 512 + 512; omega
  | ⟨1, _⟩ => show win0_14.index t (1 : Fin 2) * 512 ≤ (i 1).val ∧ (i 1).val < win0_14.index t (1 : Fin 2) * 512 + 512; omega

/-- An index of the array is in point `t`'s block iff each coordinate is in the block's range on its axis. -/
theorem mem_blk15 (t : Fin cfg0.N) (i : S512x8192.Idx) :
    i ∈ ((cfg0.win 15).blk t).view.set ↔ ∀ a : Fin 2, win0_15.index t a * S512x512.size a ≤ (i a).val ∧ (i a).val < win0_15.index t a * S512x512.size a + S512x512.size a := by
  show i ∈ ((View.whole main_v15_1).slice (win0_15.rect t)).set ↔ _
  rw [View.set_slice_whole, Rect.mem_set_unit]
  exact Iff.rfl

/-- Every index of the array is in the block of the point that owns its batch column, `⌊b / 512⌋`. -/
theorem cover15 (i : S512x8192.Idx) :
    ∃ t : Fin cfg0.N, (cfg0.win 15).flush t = true ∧ i ∈ ((cfg0.win 15).blk t).view.set := by
  have hi0 : (i 0).val < 512 := idx2_lt0 i
  have hi1 : (i 1).val < 8192 := idx2_lt1 i
  have hN : cfg0.N = 16 := N_0
  obtain ⟨t, htv⟩ : ∃ t : Fin cfg0.N, t.val = (i 1).val / 512 := ⟨⟨(i 1).val / 512, by omega⟩, rfl⟩
  obtain ⟨a0, b0, a1, b1, a2, b2, a3, b3, a4, b4, a5, b5, a14, b14, a15, b15, a16, b16⟩ := idx_moving t
  refine ⟨t, flush0_15 t, ?_⟩
  rw [mem_blk15]
  intro a
  match a with
  | ⟨0, _⟩ => show win0_15.index t (0 : Fin 2) * 512 ≤ (i 0).val ∧ (i 0).val < win0_15.index t (0 : Fin 2) * 512 + 512; omega
  | ⟨1, _⟩ => show win0_15.index t (1 : Fin 2) * 512 ≤ (i 1).val ∧ (i 1).val < win0_15.index t (1 : Fin 2) * 512 + 512; omega

/-- An index of the array is in point `t`'s block iff each coordinate is in the block's range on its axis. -/
theorem mem_blk16 (t : Fin cfg0.N) (i : S1x8192.Idx) :
    i ∈ ((cfg0.win 16).blk t).view.set ↔ ∀ a : Fin 2, win0_16.index t a * S1x512.size a ≤ (i a).val ∧ (i a).val < win0_16.index t a * S1x512.size a + S1x512.size a := by
  show i ∈ ((View.whole main_v15_2).slice (win0_16.rect t)).set ↔ _
  rw [View.set_slice_whole, Rect.mem_set_unit]
  exact Iff.rfl

/-- Every index of the array is in the block of the point that owns its batch column, `⌊b / 512⌋`. -/
theorem cover16 (i : S1x8192.Idx) :
    ∃ t : Fin cfg0.N, (cfg0.win 16).flush t = true ∧ i ∈ ((cfg0.win 16).blk t).view.set := by
  have hi0 : (i 0).val < 1 := idx2_lt0 i
  have hi1 : (i 1).val < 8192 := idx2_lt1 i
  have hN : cfg0.N = 16 := N_0
  obtain ⟨t, htv⟩ : ∃ t : Fin cfg0.N, t.val = (i 1).val / 512 := ⟨⟨(i 1).val / 512, by omega⟩, rfl⟩
  obtain ⟨a0, b0, a1, b1, a2, b2, a3, b3, a4, b4, a5, b5, a14, b14, a15, b15, a16, b16⟩ := idx_moving t
  refine ⟨t, flush0_16 t, ?_⟩
  rw [mem_blk16]
  intro a
  match a with
  | ⟨0, _⟩ => show win0_16.index t (0 : Fin 2) * 1 ≤ (i 0).val ∧ (i 0).val < win0_16.index t (0 : Fin 2) * 1 + 1; omega
  | ⟨1, _⟩ => show win0_16.index t (1 : Fin 2) * 512 ≤ (i 1).val ∧ (i 1).val < win0_16.index t (1 : Fin 2) * 512 + 512; omega

/-! ## The arrays after the run -/

theorem final14 (c : Dev nD) : (dats m 0 c).arrAt 14 cfg0.N = Hnew (Aof m c) :=
  (dats m 0 c).arrAt_eq_of_cover 14 (Hnew (Aof m c)) (fun t _ => flushed14_eq m c t) cover14

theorem final15 (c : Dev nD) : (dats m 0 c).arrAt 15 cfg0.N = Cnew (Aof m c) :=
  (dats m 0 c).arrAt_eq_of_cover 15 (Cnew (Aof m c)) (fun t _ => flushed15_eq m c t) cover15

theorem final16 (c : Dev nD) : (dats m 0 c).arrAt 16 cfg0.N = Zhat (Aof m c) :=
  (dats m 0 c).arrAt_eq_of_cover 16 (Zhat (Aof m c)) (fun t _ => flushed16_eq m c t) cover16

/-- The kernel's run: every weakly fair execution terminates with the three result arrays at the specification of
    the arguments as launched, and the arguments unchanged. -/
theorem run : θ_run defs (onTc (τ := τ) (main (F := Ideal))) ⟨m, fun _ => 0, ρ⟩ fun r => ∀ c : Dev nD,
      r.2.mem ((c : Thread nD τ).loc main_v15_0) = Hnew (Aof m c)
      ∧ r.2.mem ((c : Thread nD τ).loc main_v15_1) = Cnew (Aof m c)
      ∧ r.2.mem ((c : Thread nD τ).loc main_v15_2) = Zhat (Aof m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final14 m c), (h c).2.1.trans (final15 m c),
      (h c).2.2.1.trans (final16 m c), (h c).2.2.2⟩)
    (run_blocks m ρ)

end Cert.Scd.Ker

end
-- ==== Proof.lean ====
/-
  The boundary-gated LSTM cell: the tiled kernel and its reference compute one function on the extended reals.

  Both programs take the cell state `c`, the hidden states `h_bottom`, `h`, `h_top` (512 × 8192), the boundary
  indicators `z`, `z_bottom` (1 × 8192), three 2049 × 512 weight matrices and 2049 biases, and return the new hidden
  state, the new cell state and the boundary detector `ẑ`. Index by index the three results are: a gate
  pre-activation that is three matrix-product entries, each times its indicator at the batch column, plus a bias;
  the logistic function and tanh of four blocks of 512 rows of it; the hard sigmoid clip((x·1 + 1)/2, 0, 1) of its
  last row; and the gated mixes
      c' = z·(i·g) + (1−z)(1−z_b)·c + (1−z)·z_b·(f·c + i·g),
      h' = z·o·tanh c' + (1−z)(1−z_b)·h + (1−z)·z_b·o·tanh c'.

  The reference is that function read at an index: it multiplies with the indicator on the LEFT of each matrix
  product and spells the sigmoid out as 1/(1 + e^(−x)), so the two meet by commutativity of the product and by the
  logistic function's definition. The kernel tiles the batch axis into 16 blocks of 512 columns. What one grid point
  leaves in its three output blocks is the same function on its columns: rounding the matrix operands to bf16 is the
  identity on the extended reals, a matrix product into a zero accumulator is the finite sum over the 512 hidden
  coordinates, and the detector's row — computed as a product with a broadcast weight column summed over the hidden
  axis — is that same finite sum for row 2048; the weight blocks, weight columns and bias cuts the kernel is handed
  are rows 0 … 2047 and row 2048 of the argument arrays. The 16 blocks cover each result array (column `b` belongs to
  point ⌊b/512⌋), so each array ends at the function of the arguments.
  No step needs the inputs to be finite: only commutativity and the identity of two spellings of one finite sum are
  used, so the precondition is never opened.
-/
import proofs.«125907_j11879879544318_2_alg».proof.Defs
import proofs.«125907_j11879879544318_2_alg».proof.Proof.Gen.Kernel
import proofs.«125907_j11879879544318_2_alg».proof.Proof.Gen.Kernel.Skeleton
import proofs.«125907_j11879879544318_2_alg».proof.Proof.Gen.Kernel.Launch
import proofs.«125907_j11879879544318_2_alg».proof.Proof.Gen.Kernel.Points
import proofs.«125907_j11879879544318_2_alg».proof.Proof.Gen.Kernel.Frame
import proofs.«125907_j11879879544318_2_alg».proof.Proof.Gen.KernelIdeal
import proofs.«125907_j11879879544318_2_alg».proof.Proof.Gen.KernelIdeal.Skeleton
import proofs.«125907_j11879879544318_2_alg».proof.Proof.Gen.KernelIdeal.Launch
import proofs.«125907_j11879879544318_2_alg».proof.Proof.Gen.KernelIdeal.Points
import proofs.«125907_j11879879544318_2_alg».proof.Proof.Gen.KernelIdeal.Frame
import proofs.«125907_j11879879544318_2_alg».proof.Proof.Gen.ReferenceIdeal
import proofs.«125907_j11879879544318_2_alg».proof.Proof.Gen.Pre_finite_inputs
import proofs.«125907_j11879879544318_2_alg».proof.Proof.Gen.ReferenceIdeal.Run
import proofs.«125907_j11879879544318_2_alg».proof.Proof.Gen.ReferenceIdeal.Read
import proofs.«125907_j11879879544318_2_alg».proof.Proof.RefValue
import proofs.«125907_j11879879544318_2_alg».proof.Proof.KerFinal
import Idealize.ShloMosaic.Adequacy
import Idealize.ShloMosaic.Init

noncomputable section

namespace Cert.Proof

open Idealize.ShloMosaic Idealize.ShloMosaic.TcCoe Idealize.SL.Sem Cert.Scd

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run with its three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealized kernel is the kernel's own text read over the extended reals: the claim about rewrites is empty. -/
theorem preserves : Cert.preserves_Kernel_KernelIdeal := trivial

/-- From memories that agree on the ten arguments both programs end with the three results at the specification
    of those arguments. -/
theorem algebraic : Cert.algebraic_KernelIdeal_ReferenceIdeal := by
  intro m ρ m' ρ' _ hagree
  refine ⟨fun c => Hnew (Ker.Aof m c), fun c => Cnew (Ker.Aof m c), fun c => Zhat (Ker.Aof m c), Ker.run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9⟩ := hagree c
  refine ⟨?_, ?_, ?_, (h c).2.2.2⟩
  · refine ((h c).1.trans (Cert.ReferenceIdeal.Read.val_main_v84_eq m' c)).trans ?_
    rw [e0, e1, e2, e3, e4, e5, e6, e7, e8, e9]
    exact Ref.Hnew_eq (Ker.Aof m c)
  · refine ((h c).2.1.trans (Cert.ReferenceIdeal.Read.val_main_v65_eq m' c)).trans ?_
    rw [e0, e1, e2, e3, e4, e5, e6, e7, e8, e9]
    exact Ref.Cnew_eq (Ker.Aof m c)
  · refine ((h c).2.2.1.trans (Cert.ReferenceIdeal.Read.val_main_v46_eq (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)))).trans ?_
    rw [e1, e2, e3, e4, e5, e6, e7, e8, e9]
    exact Ref.Zhat_eq (Ker.Aof m c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
